-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S1024x1024 : Shape := ⟨2, ![1024, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S128x1024 .f32) (main_arg1 : FVec F S1024x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S128x1024 : Shape := ⟨2, ![128, 1024]⟩
abbrev S1024x1024 : Shape := ⟨2, ![1024, 1024]⟩
abbrev S2x1x128 : Shape := ⟨3, ![2, 1, 128]⟩
abbrev S1024x128 : Shape := ⟨2, ![1024, 128]⟩
abbrev S1x1x128 : Shape := ⟨3, ![1, 1, 128]⟩
abbrev S1x1 : Shape := ⟨2, ![1, 1]⟩
abbrev S1x1024 : Shape := ⟨2, ![1, 1024]⟩
abbrev S1x128 : Shape := ⟨2, ![1, 128]⟩
abbrev S128 : Shape := ⟨1, ![128]⟩
abbrev S1024 : Shape := ⟨1, ![1024]⟩
abbrev S1 : Shape := ⟨1, ![1]⟩
abbrev S128x128 : Shape := ⟨2, ![128, 128]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S2x1x128, .f32⟩
  | .hbm, ⟨3, _⟩ => ⟨S1x1x128, .f32⟩
  | .hbm, ⟨4, _⟩ => ⟨S128, .f32⟩
  | .hbm, ⟨5, _⟩ => ⟨S1x1x128, .f32⟩
  | .hbm, ⟨6, _⟩ => ⟨S128, .f32⟩
  | .hbm, ⟨7, _⟩ => ⟨S128, .f32⟩
  | .local _ .vmem, ⟨0, _⟩ => ⟨S128x1024, .f32⟩
  | .local _ .vmem, ⟨1, _⟩ => ⟨S1024x128, .f32⟩
  | .local _ .vmem, ⟨2, _⟩ => ⟨S1024x128, .f32⟩
  | .local _ .vmem, ⟨3, _⟩ => ⟨S1x1x128, .f32⟩
  | .local _ .vmem, ⟨4, _⟩ => ⟨S1x1x128, .f32⟩
  | .local _ .vmem, ⟨5, _⟩ => ⟨S1x1, .f32⟩
  | .local _ .vmem, ⟨6, _⟩ => ⟨S1x1024, .f32⟩
  | .local _ .vmem, ⟨7, _⟩ => ⟨S1x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg0 : BitVec 32 := BitVec.ofNat 32 (i 0).val
  let c4_i32 : BitVec 32 := 4#32
  let v3 : BitVec 32 := Scalar.muli arg0 c4_i32
  let arg1 : BitVec 32 := BitVec.ofNat 32 (i 1).val
  let v4 : BitVec 32 := Scalar.addi v3 arg1
  let c128_i32 : BitVec 32 := 128#32
  let v5 : BitVec 32 := Scalar.muli v4 c128_i32
  v5
def k0_off1 (i : grid0.Coords) : Fin 2 → Nat :=
  let c0_7 : Index := 0#32
  let arg0 : BitVec 32 := BitVec.ofNat 32 (i 0).val
  let c4_i32 : BitVec 32 := 4#32
  let v3 : BitVec 32 := Scalar.muli arg0 c4_i32
  let arg1 : BitVec 32 := BitVec.ofNat 32 (i 1).val
  let v4 : BitVec 32 := Scalar.addi v3 arg1
  let c128_i32 : BitVec 32 := 128#32
  let v5 : BitVec 32 := Scalar.muli v4 c128_i32
  let v6 : BitVec 32 := v5
  let v22 : Index := Scalar.indexCast v6
  ![0, v22.toNat]
def k0_cond2 (i : grid0.Coords) : BitVec 1 :=
  let arg1 : BitVec 32 := BitVec.ofNat 32 (i 1).val
  let c3_i32 : BitVec 32 := 3#32
  let v52 : BitVec 1 := Scalar.cmpi .eq arg1 c3_i32
  let v53 : BitVec 32 := Scalar.extui v52
  let c0_i32_24 : BitVec 32 := 0#32
  let v54 : BitVec 1 := Scalar.cmpi .ne v53 c0_i32_24
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1024x128_S1024x128_0_0 : ∀ a, (![0, 0] : Fin 2 → Nat) a + S1024x128.size a ≤ S1024x128.size a
  h_S1024x128 : 0 < S1024x128.numel
  iota_S1024x128_d0_w32 : S1024x128.Iotas .tc 32 [0]
  iota_S1024x128_d1_w32 : S1024x128.Iotas .tc 32 [1]
  reduces_S1024x128_S128 : S1024x128.Reduces [0] S128
  reduces_S1024x128_S1024 : S1024x128.Reduces [1] S1024
  shapeCasts_S128_S1x128 : S128.ShapeCasts S1x128
  reduces_S1x128_S1 : S1x128.Reduces [1] S1
  shapeCasts_S1_S1x1 : S1.ShapeCasts S1x1
  inpos_S1x1_p0_0 : ∀ a, (![0, 0] : Fin 2 → Nat) a < S1x1.size a
  inb_S128x1024_S128x1024_0_0 : ∀ a, (![0, 0] : Fin 2 → Nat) a + S128x1024.size a ≤ S128x1024.size a
  h_S128x1024 : 0 < S128x1024.numel
  h_S128x128 : 0 < S128x128.numel
  reduces_S128x128_S128 : S128x128.Reduces [1] S128
  broadcasts_S1x128_S128x128 : S1x128.Broadcasts S128x128
  shapeCasts_S1024_S1x1024 : S1024.ShapeCasts S1x1024
  broadcasts_S1x1024_S128x1024 : S1x1024.Broadcasts S128x1024
  reduces_S128x1024_S128 : S128x1024.Reduces [1] S128
  shapeCasts_S1x128_S128 : S1x128.ShapeCasts S128
  shapeCasts_S128_S1x1x128 : S128.ShapeCasts S1x1x128
  inb_S1x1x128_S1x1x128_0_0_0 : ∀ a, (![0, 0, 0] : Fin 3 → Nat) a + S1x1x128.size a ≤ S1x1x128.size a
  h_S1x1x128 : 0 < S1x1x128.numel
  slices_S2x1x128_S1x1x128_0_0_0 : S2x1x128.Slices ![0, 0, 0] S1x1x128
  shapeCasts_S1x1x128_S128 : S1x1x128.ShapeCasts S128
  slices_S2x1x128_S1x1x128_1_0_0 : S2x1x128.Slices ![1, 0, 0] S1x1x128
  dot_S128x1024_S1024x128_S128x128_1_0_0_1_n_n_wf : DotDims.WF S128x1024 S1024x128 S128x128 [1] [0] [0] [1] [] []
  hrank0 : 0 < grid0.rank
  k0_mult1_dvd : ∀ i : grid0.Coords, 128 ∣ (k0_mult1 i).toNat
  k0_off1_inb : ∀ i : grid0.Coords, ∀ a, (k0_off1 i) a + S128x128.size a ≤ S128x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x1024.size a
  hwx0_0 : ∀ i : grid0.Coords, EltTy.bits .f32 = 32 ∨ (Rect.block (s := S128x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x1024.size a
  hwx0_1 : ∀ i : grid0.Coords, EltTy.bits .f32 = 32 ∨ (Rect.block (s := S1024x1024) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)

variable [Facts₀]

def dot_S128x1024_S1024x128_S128x128_1_0_0_1_n_n : DotDims S128x1024 S1024x128 S128x128 where
  lhsContracting := [1]
  rhsContracting := [0]
  lhsNonContracting := [0]
  rhsNonContracting := [1]
  lhsBatch := []
  rhsBatch := []
  wf := dot_S128x1024_S1024x128_S128x128_1_0_0_1_n_n_wf

abbrev win0_0 : Pipeline.Window sig grid0 :=
  Pipeline.Window.ofSpec (Memref.whole main_arg0) S128x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S128x1024 : Shape := ⟨2, ![128, 1024]⟩
abbrev S1024x1024 : Shape := ⟨2, ![1024, 1024]⟩
abbrev S128x1x1024 : Shape := ⟨3, ![128, 1, 1024]⟩
abbrev S128x1024x1 : Shape := ⟨3, ![128, 1024, 1]⟩
abbrev S_ : Shape := ⟨0, ![]⟩
abbrev S128x1024x1024 : Shape := ⟨3, ![128, 1024, 1024]⟩
abbrev S1x1024x1024 : Shape := ⟨3, ![1, 1024, 1024]⟩
abbrev S128x1048576 : Shape := ⟨2, ![128, 1048576]⟩
abbrev S128 : Shape := ⟨1, ![128]⟩

abbrev nBuf : Space → Nat
  | .hbm => 33
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S128x1x1024, .f32⟩
  | .hbm, ⟨3, _⟩ => ⟨S128x1024x1, .f32⟩
  | .hbm, ⟨4, _⟩ => ⟨S_, .f32⟩
  | .hbm, ⟨5, _⟩ => ⟨S128x1x1024, .f32⟩
  | .hbm, ⟨6, _⟩ => ⟨S128x1x1024, .f32⟩
  | .hbm, ⟨7, _⟩ => ⟨S_, .f32⟩
  | .hbm, ⟨8, _⟩ => ⟨S128x1024x1, .f32⟩
  | .hbm, ⟨9, _⟩ => ⟨S128x1024x1, .f32⟩
  | .hbm, ⟨10, _⟩ => ⟨S128x1024x1024, .f32⟩
  | .hbm, ⟨11, _⟩ => ⟨S128x1024x1024, .f32⟩
  | .hbm, ⟨12, _⟩ => ⟨S128x1024x1024, .f32⟩
  | .hbm, ⟨13, _⟩ => ⟨S128x1024x1024, .f32⟩
  | .hbm, ⟨14, _⟩ => ⟨S128x1024x1024, .f32⟩
  | .hbm, ⟨15, _⟩ => ⟨S128x1024x1024, .f32⟩
  | .hbm, ⟨16, _⟩ => ⟨S128x1024x1024, .f32⟩
  | .hbm, ⟨17, _⟩ => ⟨S1024x1024, .i32⟩
  | .hbm, ⟨18, _⟩ => ⟨S_, .i32⟩
  | .hbm, ⟨19, _⟩ => ⟨S1024x1024, .i32⟩
  | .hbm, ⟨20, _⟩ => ⟨S1024x1024, .i32⟩
  | .hbm, ⟨21, _⟩ => ⟨S1024x1024, .i32⟩
  | .hbm, ⟨22, _⟩ => ⟨S1024x1024, .i1⟩
  | .hbm, ⟨23, _⟩ => ⟨S128x1024x1024, .i1⟩
  | .hbm, ⟨24, _⟩ => ⟨S_, .f32⟩
  | .hbm, ⟨25, _⟩ => ⟨S128x1024x1024, .f32⟩
  | .hbm, ⟨26, _⟩ => ⟨S128x1024x1024, .f32⟩
  | .hbm, ⟨27, _⟩ => ⟨S1x1024x1024, .f32⟩
  | .hbm, ⟨28, _⟩ => ⟨S128x1024x1024, .f32⟩
  | .hbm, ⟨29, _⟩ => ⟨S128x1024x1024, .f32⟩
  | .hbm, ⟨30, _⟩ => ⟨S128x1048576, .f32⟩
  | .hbm, ⟨31, _⟩ => ⟨S_, .f32⟩
  | .hbm, ⟨32, _⟩ => ⟨S128, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_cst : Ref sig .tc := ⟨.hbm, 24, rfl⟩
abbrev main_call0_v6 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩

abbrev nD : Nat := 1
abbrev τ : Topo := Topo.v7x

variable {F : FTy → Type} [FloatOps F]

class Facts₀ : Prop where
  bcast_S128x1024_S128x1x1024_0_2 : S128x1024.BroadcastsInDim S128x1x1024 (![0, 2] : Fin 2 → Fin S128x1x1024.rank)
  bcast_S128x1024_S128x1024x1_0_1 : S128x1024.BroadcastsInDim S128x1024x1 (![0, 1] : Fin 2 → Fin S128x1024x1.rank)
  bcast_S_S128x1x1024 : S_.BroadcastsInDim S128x1x1024 (![] : Fin 0 → Fin S128x1x1024.rank)
  bcast_S_S128x1024x1 : S_.BroadcastsInDim S128x1024x1 (![] : Fin 0 → Fin S128x1024x1.rank)
  bcast_S128x1x1024_S128x1024x1024_0_1_2 : S128x1x1024.BroadcastsInDim S128x1024x1024 (![0, 1, 2] : Fin 3 → Fin S128x1024x1024.rank)
  bcast_S128x1024x1_S128x1024x1024_0_1_2 : S128x1024x1.BroadcastsInDim S128x1024x1024 (![0, 1, 2] : Fin 3 → Fin S128x1024x1024.rank)
  bcast_S_S1024x1024 : S_.BroadcastsInDim S1024x1024 (![] : Fin 0 → Fin S1024x1024.rank)
  bcast_S1024x1024_S128x1024x1024_1_2 : S1024x1024.BroadcastsInDim S128x1024x1024 (![1, 2] : Fin 2 → Fin S128x1024x1024.rank)
  bcast_S_S128x1024x1024 : S_.BroadcastsInDim S128x1024x1024 (![] : Fin 0 → Fin S128x1024x1024.rank)
  bcast_S1024x1024_S1x1024x1024_1_2 : S1024x1024.BroadcastsInDim S1x1024x1024 (![1, 2] : Fin 2 → Fin S1x1024x1024.rank)
  bcast_S1x1024x1024_S128x1024x1024_0_1_2 : S1x1024x1024.BroadcastsInDim S128x1024x1024 (![0, 1, 2] : Fin 3 → Fin S128x1024x1024.rank)
  shapeCasts_S128x1024x1024_S128x1048576 : S128x1024x1024.ShapeCasts S128x1048576
  reducesTo_S128x1048576_S128_d1 : S128x1048576.ReducesTo [1] S128
  h_S_ : 0 < S_.numel

variable [Facts₀]

class Facts : Prop extends Facts₀ where

variable [Facts]
-- ==== Proof.EnergyLaw.lean ====
/-
  The Potts pair energy of one spin row and its expansion over column tiles.

  For a row `v` of 1024 spins and couplings `W`, the pair energy is
      E = Σ_{i ≤ j} ((1 - v j)(1 - v i) + v j · v i) · W i j ,
  summed here over the flattened pair index k = 1024·i + j.  Since
      (1 - a)(1 - b) + a·b = 1 - a - b + 2·a·b ,
  E = S - Σ_i v i · row i - Σ_j v j · col j + 2 · Σ_{i,j} v i · U i j · v j with U the upper triangle of W,
  row / col its row and column sums and S its total.  The columns are cut into 8 tiles of 128 lanes,
  tile T = 4c + s being the s-th tile of core c; within a tile the column sums, the quadratic term and
  the total are complete, while the row sums are partial and are added up over a core's four tiles before
  they meet `v`.  `coreEnergy c` is core c's share written that way, and the two shares add up to E.
-/
import Mathlib

noncomputable section

namespace Potts

open Finset

/-- Column `128·T + l`: lane `l` of column tile `T`. -/
def col (T : Fin 8) (l : Fin 128) : Fin 1024 :=
  ⟨128 * T.val + l.val, by have := T.isLt; have := l.isLt; omega⟩

/-- Tile `4c + s`: the `s`-th column tile of core `c`. -/
def tile (c : Fin 2) (s : Fin 4) : Fin 8 :=
  ⟨4 * c.val + s.val, by have := c.isLt; have := s.isLt; omega⟩

variable (W : Fin 1024 → Fin 1024 → ℝ) (v : Fin 1024 → ℝ)

/-- Column tile `T` of the upper triangle of `W`: entry (row `i`, lane `l`) is kept when `i ≤ 128·T + l`. -/
def U (T : Fin 8) (i : Fin 1024) (l : Fin 128) : ℝ :=
  if i.val ≤ l.val + 128 * T.val then W i (col T l) else 0

/-- Column sums of tile `T` (complete: a column tile holds every row). -/
def colSum (T : Fin 8) (l : Fin 128) : ℝ := ∑ i : Fin 1024, U W T i l

/-- Tile `T`'s part of the row sums. -/
def rowSum (T : Fin 8) (i : Fin 1024) : ℝ := ∑ l : Fin 128, U W T i l

/-- The total of tile `T`. -/
def sTile (T : Fin 8) : ℝ := ∑ l : Fin 128, colSum W T l

/-- Tile `T`'s part of `vᵀ U v`: `Σ_l (Σ_i v i · U i l) · v (col l)`. -/
def quad (T : Fin 8) : ℝ := ∑ l : Fin 128, (∑ i : Fin 1024, v i * U W T i l) * v (col T l)

/-- Tile `T`'s part of `Σ_j v j · col j`. -/
def colTerm (T : Fin 8) : ℝ := ∑ l : Fin 128, v (col T l) * colSum W T l

/-- Core `c`'s share of the energy, over its four column tiles. -/
def coreEnergy (c : Fin 2) : ℝ :=
  (∑ s : Fin 4, sTile W (tile c s)) - (∑ i : Fin 1024, v i * ∑ s : Fin 4, rowSum W (tile c s) i)
    + ∑ s : Fin 4, (2 * quad W v (tile c s) - colTerm W v (tile c s))

/-- Row `k / 1024` and column `k % 1024` of the flattened pair index `k`. -/
def pairRow (k : Fin 1048576) : Fin 1024 := ⟨k.val / 1024, by have := k.isLt; omega⟩
def pairCol (k : Fin 1048576) : Fin 1024 := ⟨k.val % 1024, by omega⟩

/-- The pair energy over the flattened index, lower triangle zeroed. -/
def pairEnergy : ℝ :=
  ∑ k : Fin 1048576,
    (if (pairRow k).val ≤ (pairCol k).val
      then (1 - v (pairCol k)) * (1 - v (pairRow k)) + v (pairCol k) * v (pairRow k) else 0)
      * W (pairRow k) (pairCol k)

/-- Lanes and tiles enumerate the columns: `j = 128·T + l`. -/
def colEquiv : Fin 8 × Fin 128 ≃ Fin 1024 where
  toFun p := col p.1 p.2
  invFun j := (⟨j.val / 128, by have := j.isLt; omega⟩, ⟨j.val % 128, by omega⟩)
  left_inv := by
    rintro ⟨T, l⟩
    have hT := T.isLt
    have hl := l.isLt
    refine Prod.ext (Fin.ext ?_) (Fin.ext ?_)
    · show (128 * T.val + l.val) / 128 = T.val
      omega
    · show (128 * T.val + l.val) % 128 = l.val
      omega
  right_inv := by
    intro j
    refine Fin.ext ?_
    show 128 * (j.val / 128) + j.val % 128 = j.val
    omega

/-- Steps and cores enumerate the tiles: `T = 4·c + s`. -/
def tileEquiv : Fin 2 × Fin 4 ≃ Fin 8 where
  toFun p := tile p.1 p.2
  invFun T := (⟨T.val / 4, by have := T.isLt; omega⟩, ⟨T.val % 4, by omega⟩)
  left_inv := by
    rintro ⟨c, s⟩
    have hc := c.isLt
    have hs := s.isLt
    refine Prod.ext (Fin.ext ?_) (Fin.ext ?_)
    · show (4 * c.val + s.val) / 4 = c.val
      omega
    · show (4 * c.val + s.val) % 4 = s.val
      omega
  right_inv := by
    intro T
    refine Fin.ext ?_
    show 4 * (T.val / 4) + T.val % 4 = T.val
    omega

/-- Rows and columns enumerate the flattened pair index: `k = 1024·i + j`. -/
def pairEquiv : Fin 1024 × Fin 1024 ≃ Fin 1048576 where
  toFun p := ⟨1024 * p.1.val + p.2.val, by have := p.1.isLt; have := p.2.isLt; omega⟩
  invFun k := (pairRow k, pairCol k)
  left_inv := by
    rintro ⟨i, j⟩
    have hi := i.isLt
    have hj := j.isLt
    refine Prod.ext (Fin.ext ?_) (Fin.ext ?_)
    · show (1024 * i.val + j.val) / 1024 = i.val
      omega
    · show (1024 * i.val + j.val) % 1024 = j.val
      omega
  right_inv := by
    intro k
    refine Fin.ext ?_
    show 1024 * (k.val / 1024) + k.val % 1024 = k.val
    omega

/-- A sum over columns is a sum over tiles and lanes. -/
lemma sum_col (f : Fin 1024 → ℝ) :
    ∑ T : Fin 8, ∑ l : Fin 128, f (col T l) = ∑ j : Fin 1024, f j := by
  rw [← Fintype.sum_prod_type' (fun T l => f (col T l))]
  exact Fintype.sum_equiv colEquiv _ _ (fun _ => rfl)

/-- A sum over tiles is a sum over cores and steps. -/
lemma sum_tile (g : Fin 8 → ℝ) :
    ∑ c : Fin 2, ∑ s : Fin 4, g (tile c s) = ∑ T : Fin 8, g T := by
  rw [← Fintype.sum_prod_type' (fun c s => g (tile c s))]
  exact Fintype.sum_equiv tileEquiv _ _ (fun _ => rfl)

/-- A sum over the flattened pair index is a sum over rows and columns. -/
lemma sum_pair (F : Fin 1024 → Fin 1024 → ℝ) :
    ∑ k : Fin 1048576, F (pairRow k) (pairCol k) = ∑ i : Fin 1024, ∑ j : Fin 1024, F i j := by
  rw [← Fintype.sum_prod_type' F]
  exact Fintype.sum_equiv pairEquiv.symm _ _ (fun _ => rfl)

/-- The summand of the pair energy at row `i`, column `j`. -/
def pairTerm (i j : Fin 1024) : ℝ :=
  (if i.val ≤ j.val then (1 - v j) * (1 - v i) + v j * v i else 0) * W i j

/-- The pair energy as a double sum over rows and columns. -/
lemma pairEnergy_eq : pairEnergy W v = ∑ i : Fin 1024, ∑ j : Fin 1024, pairTerm W v i j :=
  sum_pair (pairTerm W v)

/-- On a kept entry `(1 - a)(1 - b) + a·b = 1 - a - b + 2·a·b`; the masks agree because
column `col T l` is `128·T + l`. -/
lemma term_eq (T : Fin 8) (l : Fin 128) (i : Fin 1024) :
    U W T i l * (1 - v i - v (col T l) + 2 * v i * v (col T l)) = pairTerm W v i (col T l) := by
  have hc : (col T l).val = 128 * T.val + l.val := rfl
  unfold U pairTerm
  by_cases h : i.val ≤ l.val + 128 * T.val
  · have h' : i.val ≤ (col T l).val := by omega
    rw [if_pos h, if_pos h']; ring
  · have h' : ¬ i.val ≤ (col T l).val := by omega
    rw [if_neg h, if_neg h']; ring

/-- One tile's four terms, collected entry by entry. -/
lemma tile_identity (T : Fin 8) :
    sTile W T - (∑ i : Fin 1024, v i * rowSum W T i) + (2 * quad W v T - colTerm W v T)
      = ∑ l : Fin 128, ∑ i : Fin 1024, pairTerm W v i (col T l) := by
  have h1 : ∑ i : Fin 1024, v i * rowSum W T i
      = ∑ l : Fin 128, ∑ i : Fin 1024, v i * U W T i l := by
    unfold rowSum
    simp only [Finset.mul_sum]
    exact Finset.sum_comm
  have h2 : quad W v T = ∑ l : Fin 128, ∑ i : Fin 1024, v i * U W T i l * v (col T l) := by
    unfold quad
    simp only [Finset.sum_mul]
  have h3 : colTerm W v T = ∑ l : Fin 128, ∑ i : Fin 1024, v (col T l) * U W T i l := by
    unfold colTerm colSum
    simp only [Finset.mul_sum]
  have h4 : sTile W T = ∑ l : Fin 128, ∑ i : Fin 1024, U W T i l := rfl
  rw [h1, h2, h3, h4, Finset.mul_sum, ← Finset.sum_sub_distrib, ← Finset.sum_sub_distrib,
    ← Finset.sum_add_distrib]
  refine Finset.sum_congr rfl (fun l _ => ?_)
  rw [Finset.mul_sum, ← Finset.sum_sub_distrib, ← Finset.sum_sub_distrib,
    ← Finset.sum_add_distrib]
  refine Finset.sum_congr rfl (fun i _ => ?_)
  rw [← term_eq]
  ring

/-- A core's share is the sum of its four tiles' entries. -/
lemma coreEnergy_eq (c : Fin 2) :
    coreEnergy W v c
      = ∑ s : Fin 4, ∑ l : Fin 128, ∑ i : Fin 1024, pairTerm W v i (col (tile c s) l) := by
  have h : ∑ i : Fin 1024, v i * ∑ s : Fin 4, rowSum W (tile c s) i
      = ∑ s : Fin 4, ∑ i : Fin 1024, v i * rowSum W (tile c s) i := by
    simp only [Finset.mul_sum]
    exact Finset.sum_comm
  unfold coreEnergy
  rw [h, ← Finset.sum_sub_distrib, ← Finset.sum_add_distrib]
  exact Finset.sum_congr rfl (fun s _ => tile_identity W v (tile c s))

/-- The two cores' shares add up to the pair energy. -/
theorem energy_law : coreEnergy W v 0 + coreEnergy W v 1 = pairEnergy W v := by
  have h2 : coreEnergy W v 0 + coreEnergy W v 1 = ∑ c : Fin 2, coreEnergy W v c :=
    (Fin.sum_univ_two _).symm
  rw [h2, pairEnergy_eq]
  simp only [coreEnergy_eq]
  rw [sum_tile (fun T => ∑ l : Fin 128, ∑ i : Fin 1024, pairTerm W v i (col T l)),
    sum_col (fun j => ∑ i : Fin 1024, pairTerm W v i j)]
  exact Finset.sum_comm

end Potts

end
-- ==== Proof.FiniteInputs.lean ====
/-
  Finite inputs are real arrays.  The precondition says every entry a of both argument arrays has
  |a| < +∞ on the extended reals, so every entry is the coercion of a real number; choosing those
  reals entry by entry writes each argument array as the coercion of a real array.
-/
import proofs.«133030_j19688130085114_2_alg».proof.Defs
import Idealize.ShloMosaic.Lib.ValueIdx
import Idealize.ShloMosaic.Lib.ReduceAll

noncomputable section

namespace Cert.KernelIdeal.Finite

open Idealize.ShloMosaic Idealize.ShloMosaic.TcCoe Idealize.SL.Sem Cert.KernelIdeal

/-- The f32 pattern of +∞ (exponent all ones, mantissa zero, sign clear) denotes the top extended real. -/
theorem ofBits_inf : Ideal.ofBits .f32 0x7F800000#32 = (⊤ : EReal) := by
  simp [Ideal.ofBits, Ideal.ieee]

/-- An extended real whose absolute value max x (-x) is below +∞ is a real number:
    x = ⊤ gives max ⊤ ⊥ = ⊤ and x = ⊥ gives max ⊥ ⊤ = ⊤, neither of which is below ⊤. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The comparison "ordered less than" on extended reals that came out 1 says the strict inequality:
    were x < y false, the comparison would be the bit of false, which is 0. -/
theorem lt_of_cmp_olt (x y : EReal) (h : Ideal.cmp .olt x y = 1#1) : x < y := by
  by_contra hn
  have h0 : Ideal.cmp .olt x y = 0#1 := by simp [Ideal.cmp, hn]
  rw [h0] at h
  exact absurd h (by decide)

/-- One entry of the test |a| < +∞ that came out 1 makes that entry a real number. -/
theorem real_of_entry (x : EReal)
    (h : Ideal.cmp .olt (max x (-x)) (Ideal.ofBits .f32 0x7F800000#32) = 1#1) : ∃ r : ℝ, x = (r : EReal) := by
  rw [ofBits_inf] at h
  exact real_of_abs_lt_top x (lt_of_cmp_olt _ _ h)

/-- Under the precondition both argument arrays of the idealized kernel are coercions of real arrays. -/
theorem real_of_pre [hP : Cert.Pre_finite_inputs.Facts]
    (m : (ℓ : Loc nD τ sig) → Buf (Elt Ideal) ℓ) (h : Cert.Pre_KernelIdeal m) (c : Dev nD) :
    ∃ (v : S128x1024.Idx → ℝ) (w : S1024x1024.Idx → ℝ),
      (m ((c.tc : Thread nD τ).loc main_arg0) : S128x1024.Idx → EReal) = (fun j => ((v j : ℝ) : EReal))
      ∧ (m ((c.tc : Thread nD τ).loc main_arg1) : S1024x1024.Idx → EReal) = (fun j => ((w j : ℝ) : EReal)) := by
  -- the rank-0 result shape has exactly one index
  haveI : Subsingleton Cert.Pre_finite_inputs.S_.Idx := ⟨fun a b => funext fun d => d.elim0⟩
  -- the predicate's value at that index is 1: the conjunction of the two "all entries finite" tests
  have h0 := congrFun (h c) ValueIdx.ix0
  dsimp only [Cert.Pre_finite_inputs.fn] at h0
  obtain ⟨hA, hB⟩ := IntOp.andi_eq_one.1 h0
  -- a reduction by "and" over all axes that is 1 had a 1 at every entry
  have eA := fun i => Host.reduce_andi_all _ _ _ _ _ hA i
  have eB := fun i => Host.reduce_andi_all _ _ _ _ _ hB i
  -- each entry's test |a| < +∞ is 1, so each entry is a real; choose the reals entry by entry
  choose v hv using fun i => real_of_entry _ (eA i)
  choose w hw using fun i => real_of_entry _ (eB i)
  exact ⟨v, w, funext hv, funext hw⟩

end Cert.KernelIdeal.Finite

end
-- ==== Proof.RefEnergy.lean ====
/-
  The reference on real inputs.  jnp's reference builds, for every batch row b, the [1024, 1024] table
  dd i j = (1 - v j)(1 - v i) + v j · v i, zeroes it below the diagonal (triu: entry (i, j) is replaced by 0
  when i - 1 ≥ j), multiplies by the couplings, flattens the table and sums it from 0.  With real entries its
  result at b is the Potts pair energy of row b over the flattened pair index.
-/
import proofs.«133030_j19688130085114_2_alg».proof.Proof.RefRead
import proofs.«133030_j19688130085114_2_alg».proof.Proof.EnergyLaw
import Idealize.ShloMosaic.Lib.ValueIdx
import Idealize.ShloMosaic.PureOps.IdealRules
import Idealize.ShloMosaic.Lib.WordArith

noncomputable section

namespace Cert.ReferenceIdeal.RefEnergy

open Idealize.ShloMosaic Idealize.ShloMosaic.TcCoe Idealize.SL.Sem Cert.ReferenceIdeal Cert.ReferenceIdeal.ReadP
open Idealize.ShloMosaic.ValueIdx

/-! ### Words: the mask's signed comparison, and sums of real numbers in the extended reals -/

/-- The signed reading of `i - 1` on 32-bit words, for `i < 1024`: adding the all-ones word subtracts one. -/
theorem toInt_pred (i : Fin 1024) :
    (IntOp.addi (BitVec.ofNat 32 i.val) 4294967295#32).toInt = (i.val : Int) - 1 := by
  have hi := i.isLt
  have h1 : (BitVec.ofNat 32 i.val).toInt = (i.val : Int) := WordArith.toInt_ofNat_small i.val (by omega)
  have h2 : (4294967295#32 : BitVec 32).toInt = -1 := by decide
  show (BitVec.ofNat 32 i.val + 4294967295#32).toInt = _
  rw [WordArith.toInt_add_of_bounds _ _ (by rw [h1, h2]; omega) (by rw [h1, h2]; omega), h1, h2]
  omega

/-- The mask bit at row `i`, column `j` is set exactly below the diagonal: `i - 1 ≥ j` signed, that is `j < i`. -/
theorem mask_iff (i j : Fin 1024) :
    IntOp.cmpi .sge (IntOp.addi (BitVec.ofNat 32 i.val) 4294967295#32) (BitVec.ofNat 32 j.val) = 1#1
      ↔ j.val < i.val := by
  have hj := j.isLt
  have h3 : (BitVec.ofNat 32 j.val).toInt = (j.val : Int) := WordArith.toInt_ofNat_small j.val (by omega)
  simp only [IntOp.cmpi, WordArith.ofBool_eq_one_iff, BitVec.sle_iff_toInt_le]
  rw [toInt_pred, h3]
  omega

/-- A finite sum of real numbers read in the extended reals is the real sum read there. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

section Entries

/-! ### The inputs and the two index reshapes -/

/-- The flattened index `(b, k)` of the reshape is entry `(b, k / 1024, k % 1024)` of the table. -/
theorem idx17 (b : Fin 128) (k : Fin 1048576) :
    idx_main_v17 (idx_main_v18 (ix1 b) k) = ix3 b (Potts.pairRow k) (Potts.pairCol k) := by
  have hb := b.isLt
  have hk := k.isLt
  funext a
  match a with
  | ⟨0, _⟩ => exact Fin.ext (by show (b.val * 1048576 + k.val) / 1048576 = b.val; omega)
  | ⟨1, _⟩ => exact Fin.ext (by show (b.val * 1048576 + k.val) / 1024 % 1024 = k.val / 1024; omega)
  | ⟨2, _⟩ => exact Fin.ext (by show (b.val * 1048576 + k.val) % 1024 = k.val % 1024; omega)

/-- The pattern `0x3F800000` is the number one. -/
theorem one_f32 : Ideal.ofBits .f32 0x3F800000#32 = 1 := IdealRules.sign_bit.ideal_onePat .f32

variable (V : Fin 128 → Fin 1024 → ℝ) (W : Fin 1024 → Fin 1024 → ℝ)

/-- The table `dd` at `(b, i, j)`: `(1 - v j)(1 - v i) + v j · v i` on row `b`'s spins. -/
theorem v12_at (b : Fin 128) (i j : Fin 1024) :
    val_main_v12 (F := Ideal) (fun j => ((V (j 0) (j 1) : ℝ) : EReal)) (ix3 b i j)
      = (((1 - V b j) * (1 - V b i) + V b j * V b i : ℝ) : EReal) := by
  rw [val_main_v12_apply, val_main_v8_apply, val_main_v11_apply, val_main_v6_apply, val_main_v7_apply,
    val_main_v9_apply, val_main_v10_apply, val_main_v3_apply, val_main_v5_apply, val_main_v2_apply,
    val_main_v4_apply, val_main_cst_apply, val_main_cst_0_apply, val_main_v0_apply, val_main_v1_apply]
  show (Ideal.ofBits .f32 0x3F800000#32 - ((V b j : ℝ) : EReal)) * (Ideal.ofBits .f32 0x3F800000#32 - ((V b i : ℝ) : EReal))
      + ((V b j : ℝ) : EReal) * ((V b i : ℝ) : EReal) = _
  rw [one_f32, ← EReal.coe_one, ← EReal.coe_sub, ← EReal.coe_sub, ← EReal.coe_mul, ← EReal.coe_mul, ← EReal.coe_add]

/-- The mask at `(b, i, j)` is the signed comparison `i - 1 ≥ j` on 32-bit words. -/
theorem mask_at (b : Fin 128) (i j : Fin 1024) :
    val_main_call0_v5 (F := Ideal) (ix3 b i j)
      = IntOp.cmpi .sge (IntOp.addi (BitVec.ofNat 32 i.val) 4294967295#32) (BitVec.ofNat 32 j.val) := by
  rw [val_main_call0_v5_apply, val_main_call0_v4_apply, val_main_call0_v2_apply, val_main_call0_v0_apply,
    val_main_call0_v1_apply, val_main_call0_c_apply, val_main_call0_v3_apply]

/-- The replacement value of the mask is zero. -/
theorem zero_at (b : Fin 128) (i j : Fin 1024) :
    val_main_call0_v6 (F := Ideal) (ix3 b i j) = 0 := by
  rw [val_main_call0_v6_apply, val_main_call0_cst_apply, Ideal.ofBits_def, Ideal.ofBits_zero_f32]

/-- The masked table at `(b, i, j)`: kept on and above the diagonal, zero below it. -/
theorem v13_at (b : Fin 128) (i j : Fin 1024) :
    val_main_v13 (F := Ideal) (fun j => ((V (j 0) (j 1) : ℝ) : EReal)) (ix3 b i j)
      = ((if i.val ≤ j.val then (1 - V b j) * (1 - V b i) + V b j * V b i else 0 : ℝ) : EReal) := by
  rw [val_main_v13_apply, mask_at, zero_at, v12_at]
  by_cases h : j.val < i.val
  · rw [(mask_iff i j).mpr h, select_one, if_neg (by omega), EReal.coe_zero]
  · rw [eq_zero_of_ne_one (fun e => h ((mask_iff i j).mp e)), select_zero, if_pos (by omega)]

/-- The couplings broadcast over the batch, at `(b, i, j)`. -/
theorem v15_at (b : Fin 128) (i j : Fin 1024) :
    val_main_v15 (F := Ideal) (fun j => ((W (j 0) (j 1) : ℝ) : EReal)) (ix3 b i j) = ((W i j : ℝ) : EReal) := by
  rw [val_main_v15_apply, val_main_v14_apply]
  rfl

/-- The weighted masked table at `(b, i, j)` is the pair energy's summand. -/
theorem v16_at (b : Fin 128) (i j : Fin 1024) :
    val_main_v16 (F := Ideal) (fun j => ((V (j 0) (j 1) : ℝ) : EReal)) (fun j => ((W (j 0) (j 1) : ℝ) : EReal)) (ix3 b i j)
      = ((Potts.pairTerm W (V b) i j : ℝ) : EReal) := by
  rw [val_main_v16_apply, v13_at, v15_at, Ideal.mulf_def, ← EReal.coe_mul]
  rfl

end Entries

/-- On real spins `V` and couplings `W` the reference's result at batch row `b` is that row's pair energy. -/
theorem ref_value (V : Fin 128 → Fin 1024 → ℝ) (W : Fin 1024 → Fin 1024 → ℝ) (b : Fin 128) :
    val_main_v18 (F := Ideal) (fun j => ((V (j 0) (j 1) : ℝ) : EReal)) (fun j => ((W (j 0) (j 1) : ℝ) : EReal)) (ix1 b)
      = ((Potts.pairEnergy W (V b) : ℝ) : EReal) := by
  have hs : ∀ k : Fin 1048576,
      val_main_v17 (F := Ideal) (fun j => ((V (j 0) (j 1) : ℝ) : EReal)) (fun j => ((W (j 0) (j 1) : ℝ) : EReal))
          (idx_main_v18 (ix1 b) k)
        = ((Potts.pairTerm W (V b) (Potts.pairRow k) (Potts.pairCol k) : ℝ) : EReal) := by
    intro k
    rw [val_main_v17_apply, idx17, v16_at]
  rw [val_main_v18_apply, val_main_cst_1_apply, Finset.sum_congr rfl (fun k _ => hs k), coe_sum,
    Ideal.ofBits_def, Ideal.ofBits_zero_f32, zero_add]
  rfl

end Cert.ReferenceIdeal.RefEnergy

end
-- ==== Proof.KernelStep.lean ====
/-
  What one grid step leaves behind.  The kernel carries three accumulators between grid points: the
  running total of the upper triangle seen so far (one number), the running row sums (1024 numbers) and
  the running per-batch-row energy terms 2·quad - colterm (128 numbers).  At the first of a core's four
  steps they restart from zero; every step adds its tile's contribution; the core's last step also writes
  the result row  total - Σ_r V b r · rows r + energy b.  This module reads the three control cases of the
  body (first step / middle step / last step) as those updates, as pure functions of the blocks the step
  loads and of what the step before left.
-/
import proofs.«133030_j19688130085114_2_alg».proof.Proof.Gen.KernelIdeal.Frame
import Idealize.ShloMosaic.Lib.Pipeline.Value
import Idealize.ShloMosaic.Lib.Tactic

noncomputable section

namespace Cert.KernelIdeal.Step

open Idealize.ShloMosaic Idealize.ShloMosaic.TcCoe Idealize.SL.Sem Cert.KernelIdeal Cert.KernelIdeal.Gen
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The spins at the step's 128 columns: the [128, 128] window of the spin block at the step's column offset. -/
def vCols (i : grid0.Coords) (x0 : Vec F S128x1024 .f32) : Vec F S128x128 .f32 :=
  View.ld x0 (Rect.unit (s := S128x1024) (k0_off1 i) S128x128.size (k0_off1_inb i))

/-- The running total after a step, from the total before it. -/
def stepTotal (i : grid0.Coords) (x1 : Vec F S1024x128 .f32) (s : Vec F S1x1 .f32) : Vec F S1x1 .f32 :=
  k0_pay12 i x1 s
/-- The running row sums after a step. -/
def stepRows (i : grid0.Coords) (x1 : Vec F S1024x128 .f32) (r : Vec F S1x1024 .f32) : Vec F S1x1024 .f32 :=
  k0_pay1 (k0_pay9 i x1) r
/-- The running energy terms after a step. -/
def stepEnergy (i : grid0.Coords) (x0 : Vec F S128x1024 .f32) (x1 : Vec F S1024x128 .f32) (e : Vec F S1x128 .f32) : Vec F S1x128 .f32 :=
  k0_pay2 (k0_pay10 i x1 x0 (vCols i x0)) (k0_pay11 i x1 (vCols i x0)) e
/-- The result row a core's last step writes, from the three accumulators after that step. -/
def resultRow (x0 : Vec F S128x1024 .f32) (r : Vec F S1x1024 .f32) (s : Vec F S1x1 .f32) (e : Vec F S1x128 .f32) : Vec F S1x1x128 .f32 :=
  k0_pay3 x0 r s e

/-! ## The first step of a core (the accumulators restart from zero) -/

theorem total_A (c : Dev nD) (i : grid0.Coords) (arg2 : Memref sig .tc .vmem S128x1024 .f32) (harg2 : arg2.IsWhole) (arg3 : Memref sig .tc .vmem S1024x128 .f32) (harg3 : arg3.IsWhole) (arg4 : Memref sig .tc .vmem S1x1x128 .f32) (harg4 : arg4.IsWhole) (arg5 : Memref sig .tc .vmem S1x1 .f32) (harg5 : arg5.IsWhole) (arg6 : Memref sig .tc .vmem S1x1024 .f32) (harg6 : arg6.IsWhole) (arg7 : Memref sig .tc .vmem S1x128 .f32) (harg7 : arg7.IsWhole) (hc0 : cond0_0 i) (hc1 : ¬cond0_1 i)
    (x0 : Vec F S128x1024 .f32) (x1 : Vec F S1024x128 .f32) :
    sout0_A_0 c i arg2 harg2 arg3 harg3 arg4 harg4 arg5 harg5 arg6 harg6 arg7 harg7 hc0 hc1 x0 x1 = stepTotal i x1 k0_pay4 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_run_names
  rw [View.canon_cons_unit_zero (S := S1x1) hz2, View.readCov_unit_zero (S := S1x1) _ hz2]
  simp only [View.readAt_eq_ld, harg2.read_unread, harg3.read_unread, View.ld_unit_zero (S := S128x1024) hz2, View.ld_unit_zero (S := S1024x128) hz2]
  rfl

theorem rows_A (c : Dev nD) (i : grid0.Coords) (arg2 : Memref sig .tc .vmem S128x1024 .f32) (harg2 : arg2.IsWhole) (arg3 : Memref sig .tc .vmem S1024x128 .f32) (harg3 : arg3.IsWhole) (arg4 : Memref sig .tc .vmem S1x1x128 .f32) (harg4 : arg4.IsWhole) (arg5 : Memref sig .tc .vmem S1x1 .f32) (harg5 : arg5.IsWhole) (arg6 : Memref sig .tc .vmem S1x1024 .f32) (harg6 : arg6.IsWhole) (arg7 : Memref sig .tc .vmem S1x128 .f32) (harg7 : arg7.IsWhole) (hc0 : cond0_0 i) (hc1 : ¬cond0_1 i)
    (x0 : Vec F S128x1024 .f32) (x1 : Vec F S1024x128 .f32) :
    sout0_A_1 c i arg2 harg2 arg3 harg3 arg4 harg4 arg5 harg5 arg6 harg6 arg7 harg7 hc0 hc1 x0 x1 = stepRows i x1 k0_pay5 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_run_names
  rw [View.canon_cons_unit_zero (S := S1x1024) hz2, View.readCov_unit_zero (S := S1x1024) _ hz2]
  simp only [View.readAt_eq_ld, harg2.read_unread, harg3.read_unread, View.ld_unit_zero (S := S128x1024) hz2, View.ld_unit_zero (S := S1024x128) hz2]
  rfl

theorem energy_A (c : Dev nD) (i : grid0.Coords) (arg2 : Memref sig .tc .vmem S128x1024 .f32) (harg2 : arg2.IsWhole) (arg3 : Memref sig .tc .vmem S1024x128 .f32) (harg3 : arg3.IsWhole) (arg4 : Memref sig .tc .vmem S1x1x128 .f32) (harg4 : arg4.IsWhole) (arg5 : Memref sig .tc .vmem S1x1 .f32) (harg5 : arg5.IsWhole) (arg6 : Memref sig .tc .vmem S1x1024 .f32) (harg6 : arg6.IsWhole) (arg7 : Memref sig .tc .vmem S1x128 .f32) (harg7 : arg7.IsWhole) (hc0 : cond0_0 i) (hc1 : ¬cond0_1 i)
    (x0 : Vec F S128x1024 .f32) (x1 : Vec F S1024x128 .f32) :
    sout0_A_2 c i arg2 harg2 arg3 harg3 arg4 harg4 arg5 harg5 arg6 harg6 arg7 harg7 hc0 hc1 x0 x1 = stepEnergy i x0 x1 k0_pay6 := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_run_names
  rw [View.canon_cons_unit_zero (S := S1x128) hz2, View.readCov_unit_zero (S := S1x128) _ hz2]
  simp only [View.readAt_eq_ld, harg2.read_unread, harg3.read_unread, View.ld_unit_zero (S := S128x1024) hz2, View.ld_unit_zero (S := S1024x128) hz2]
  rfl

/-! ## A middle step, and the last step of a core (each adds its tile to what the step before left) -/

theorem total_B (c : Dev nD) (i : grid0.Coords) (arg2 : Memref sig .tc .vmem S128x1024 .f32) (harg2 : arg2.IsWhole) (arg3 : Memref sig .tc .vmem S1024x128 .f32) (harg3 : arg3.IsWhole) (arg4 : Memref sig .tc .vmem S1x1x128 .f32) (harg4 : arg4.IsWhole) (arg5 : Memref sig .tc .vmem S1x1 .f32) (harg5 : arg5.IsWhole) (arg6 : Memref sig .tc .vmem S1x1024 .f32) (harg6 : arg6.IsWhole) (arg7 : Memref sig .tc .vmem S1x128 .f32) (harg7 : arg7.IsWhole) (hc0 : ¬cond0_0 i) (hc1 : ¬cond0_1 i)
    (x0 : Vec F S128x1024 .f32) (x1 : Vec F S1024x128 .f32) (xs0 : Vec F S1x1 .f32) (xs1 : Vec F S1x1024 .f32) (xs2 : Vec F S1x128 .f32) :
    sout0_B_0 c i arg2 harg2 arg3 harg3 arg4 harg4 arg5 harg5 arg6 harg6 arg7 harg7 hc0 hc1 x0 x1 xs0 xs1 xs2 = stepTotal i x1 xs0 := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_run_names
  rw [View.canon_unit_zero hz2]
  simp only [View.readAt_eq_ld, harg2.read_unread, harg3.read_unread, harg5.read_unread, harg6.read_unread, harg7.read_unread, View.ld_unit_zero (S := S128x1024) hz2, View.ld_unit_zero (S := S1024x128) hz2, View.ld_unit_zero (S := S1x1) hz2, View.ld_unit_zero (S := S1x1024) hz2, View.ld_unit_zero (S := S1x128) hz2]
  rfl

theorem rows_B (c : Dev nD) (i : grid0.Coords) (arg2 : Memref sig .tc .vmem S128x1024 .f32) (harg2 : arg2.IsWhole) (arg3 : Memref sig .tc .vmem S1024x128 .f32) (harg3 : arg3.IsWhole) (arg4 : Memref sig .tc .vmem S1x1x128 .f32) (harg4 : arg4.IsWhole) (arg5 : Memref sig .tc .vmem S1x1 .f32) (harg5 : arg5.IsWhole) (arg6 : Memref sig .tc .vmem S1x1024 .f32) (harg6 : arg6.IsWhole) (arg7 : Memref sig .tc .vmem S1x128 .f32) (harg7 : arg7.IsWhole) (hc0 : ¬cond0_0 i) (hc1 : ¬cond0_1 i)
    (x0 : Vec F S128x1024 .f32) (x1 : Vec F S1024x128 .f32) (xs0 : Vec F S1x1 .f32) (xs1 : Vec F S1x1024 .f32) (xs2 : Vec F S1x128 .f32) :
    sout0_B_1 c i arg2 harg2 arg3 harg3 arg4 harg4 arg5 harg5 arg6 harg6 arg7 harg7 hc0 hc1 x0 x1 xs0 xs1 xs2 = stepRows i x1 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_run_names
  rw [View.canon_unit_zero hz2]
  simp only [View.readAt_eq_ld, harg2.read_unread, harg3.read_unread, harg5.read_unread, harg6.read_unread, harg7.read_unread, View.ld_unit_zero (S := S128x1024) hz2, View.ld_unit_zero (S := S1024x128) hz2, View.ld_unit_zero (S := S1x1) hz2, View.ld_unit_zero (S := S1x1024) hz2, View.ld_unit_zero (S := S1x128) hz2]
  rfl

theorem energy_B (c : Dev nD) (i : grid0.Coords) (arg2 : Memref sig .tc .vmem S128x1024 .f32) (harg2 : arg2.IsWhole) (arg3 : Memref sig .tc .vmem S1024x128 .f32) (harg3 : arg3.IsWhole) (arg4 : Memref sig .tc .vmem S1x1x128 .f32) (harg4 : arg4.IsWhole) (arg5 : Memref sig .tc .vmem S1x1 .f32) (harg5 : arg5.IsWhole) (arg6 : Memref sig .tc .vmem S1x1024 .f32) (harg6 : arg6.IsWhole) (arg7 : Memref sig .tc .vmem S1x128 .f32) (harg7 : arg7.IsWhole) (hc0 : ¬cond0_0 i) (hc1 : ¬cond0_1 i)
    (x0 : Vec F S128x1024 .f32) (x1 : Vec F S1024x128 .f32) (xs0 : Vec F S1x1 .f32) (xs1 : Vec F S1x1024 .f32) (xs2 : Vec F S1x128 .f32) :
    sout0_B_2 c i arg2 harg2 arg3 harg3 arg4 harg4 arg5 harg5 arg6 harg6 arg7 harg7 hc0 hc1 x0 x1 xs0 xs1 xs2 = stepEnergy i x0 x1 xs2 := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_run_names
  rw [View.canon_unit_zero hz2]
  simp only [View.readAt_eq_ld, harg2.read_unread, harg3.read_unread, harg5.read_unread, harg6.read_unread, harg7.read_unread, View.ld_unit_zero (S := S128x1024) hz2, View.ld_unit_zero (S := S1024x128) hz2, View.ld_unit_zero (S := S1x1) hz2, View.ld_unit_zero (S := S1x1024) hz2, View.ld_unit_zero (S := S1x128) hz2]
  rfl

theorem total_C (c : Dev nD) (i : grid0.Coords) (arg2 : Memref sig .tc .vmem S128x1024 .f32) (harg2 : arg2.IsWhole) (arg3 : Memref sig .tc .vmem S1024x128 .f32) (harg3 : arg3.IsWhole) (arg4 : Memref sig .tc .vmem S1x1x128 .f32) (harg4 : arg4.IsWhole) (arg5 : Memref sig .tc .vmem S1x1 .f32) (harg5 : arg5.IsWhole) (arg6 : Memref sig .tc .vmem S1x1024 .f32) (harg6 : arg6.IsWhole) (arg7 : Memref sig .tc .vmem S1x128 .f32) (harg7 : arg7.IsWhole) (hc0 : ¬cond0_0 i) (hc1 : cond0_1 i)
    (x0 : Vec F S128x1024 .f32) (x1 : Vec F S1024x128 .f32) (xs0 : Vec F S1x1 .f32) (xs1 : Vec F S1x1024 .f32) (xs2 : Vec F S1x128 .f32) :
    sout0_C_0 c i arg2 harg2 arg3 harg3 arg4 harg4 arg5 harg5 arg6 harg6 arg7 harg7 hc0 hc1 x0 x1 xs0 xs1 xs2 = stepTotal i x1 xs0 := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_run_names
  rw [View.canon_unit_zero hz2]
  simp only [View.readAt_eq_ld, harg2.read_unread, harg3.read_unread, harg5.read_unread, harg6.read_unread, harg7.read_unread, View.ld_unit_zero (S := S128x1024) hz2, View.ld_unit_zero (S := S1024x128) hz2, View.ld_unit_zero (S := S1x1) hz2, View.ld_unit_zero (S := S1x1024) hz2, View.ld_unit_zero (S := S1x128) hz2]
  rfl

theorem rows_C (c : Dev nD) (i : grid0.Coords) (arg2 : Memref sig .tc .vmem S128x1024 .f32) (harg2 : arg2.IsWhole) (arg3 : Memref sig .tc .vmem S1024x128 .f32) (harg3 : arg3.IsWhole) (arg4 : Memref sig .tc .vmem S1x1x128 .f32) (harg4 : arg4.IsWhole) (arg5 : Memref sig .tc .vmem S1x1 .f32) (harg5 : arg5.IsWhole) (arg6 : Memref sig .tc .vmem S1x1024 .f32) (harg6 : arg6.IsWhole) (arg7 : Memref sig .tc .vmem S1x128 .f32) (harg7 : arg7.IsWhole) (hc0 : ¬cond0_0 i) (hc1 : cond0_1 i)
    (x0 : Vec F S128x1024 .f32) (x1 : Vec F S1024x128 .f32) (xs0 : Vec F S1x1 .f32) (xs1 : Vec F S1x1024 .f32) (xs2 : Vec F S1x128 .f32) :
    sout0_C_1 c i arg2 harg2 arg3 harg3 arg4 harg4 arg5 harg5 arg6 harg6 arg7 harg7 hc0 hc1 x0 x1 xs0 xs1 xs2 = stepRows i x1 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_run_names
  rw [View.canon_unit_zero hz2]
  simp only [View.readAt_eq_ld, harg2.read_unread, harg3.read_unread, harg5.read_unread, harg6.read_unread, harg7.read_unread, View.ld_unit_zero (S := S128x1024) hz2, View.ld_unit_zero (S := S1024x128) hz2, View.ld_unit_zero (S := S1x1) hz2, View.ld_unit_zero (S := S1x1024) hz2, View.ld_unit_zero (S := S1x128) hz2]
  rfl

theorem energy_C (c : Dev nD) (i : grid0.Coords) (arg2 : Memref sig .tc .vmem S128x1024 .f32) (harg2 : arg2.IsWhole) (arg3 : Memref sig .tc .vmem S1024x128 .f32) (harg3 : arg3.IsWhole) (arg4 : Memref sig .tc .vmem S1x1x128 .f32) (harg4 : arg4.IsWhole) (arg5 : Memref sig .tc .vmem S1x1 .f32) (harg5 : arg5.IsWhole) (arg6 : Memref sig .tc .vmem S1x1024 .f32) (harg6 : arg6.IsWhole) (arg7 : Memref sig .tc .vmem S1x128 .f32) (harg7 : arg7.IsWhole) (hc0 : ¬cond0_0 i) (hc1 : cond0_1 i)
    (x0 : Vec F S128x1024 .f32) (x1 : Vec F S1024x128 .f32) (xs0 : Vec F S1x1 .f32) (xs1 : Vec F S1x1024 .f32) (xs2 : Vec F S1x128 .f32) :
    sout0_C_2 c i arg2 harg2 arg3 harg3 arg4 harg4 arg5 harg5 arg6 harg6 arg7 harg7 hc0 hc1 x0 x1 xs0 xs1 xs2 = stepEnergy i x0 x1 xs2 := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_run_names
  rw [View.canon_unit_zero hz2]
  simp only [View.readAt_eq_ld, harg2.read_unread, harg3.read_unread, harg5.read_unread, harg6.read_unread, harg7.read_unread, View.ld_unit_zero (S := S128x1024) hz2, View.ld_unit_zero (S := S1024x128) hz2, View.ld_unit_zero (S := S1x1) hz2, View.ld_unit_zero (S := S1x1024) hz2, View.ld_unit_zero (S := S1x128) hz2]
  rfl

/-! ## The last step also writes the result row, from the accumulators it has just updated -/

theorem result_C (c : Dev nD) (i : grid0.Coords) (arg2 : Memref sig .tc .vmem S128x1024 .f32) (harg2 : arg2.IsWhole) (arg3 : Memref sig .tc .vmem S1024x128 .f32) (harg3 : arg3.IsWhole) (arg4 : Memref sig .tc .vmem S1x1x128 .f32) (harg4 : arg4.IsWhole) (arg5 : Memref sig .tc .vmem S1x1 .f32) (harg5 : arg5.IsWhole) (arg6 : Memref sig .tc .vmem S1x1024 .f32) (harg6 : arg6.IsWhole) (arg7 : Memref sig .tc .vmem S1x128 .f32) (harg7 : arg7.IsWhole) (hc0 : ¬cond0_0 i) (hc1 : cond0_1 i)
    (x0 : Vec F S128x1024 .f32) (x1 : Vec F S1024x128 .f32) (xs0 : Vec F S1x1 .f32) (xs1 : Vec F S1x1024 .f32) (xs2 : Vec F S1x128 .f32) :
    out0_C_2 c i arg2 harg2 arg3 harg3 arg4 harg4 arg5 harg5 arg6 harg6 arg7 harg7 hc0 hc1 x0 x1 xs0 xs1 xs2 = resultRow x0 (stepRows i x1 xs1) (stepTotal i x1 xs0) (stepEnergy i x0 x1 xs2) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_run_names
  rw [View.canon_unit_zero hz3, View.readCov_unit_zero (S := S1x1024) _ hz2, View.readCov_unit_zero (S := S1x1) _ hz2, View.readCov_unit_zero (S := S1x128) _ hz2]
  simp only [View.readAt_eq_ld, harg2.read_unread, harg3.read_unread, harg5.read_unread, harg6.read_unread, harg7.read_unread, View.ld_unit_zero (S := S128x1024) hz2, View.ld_unit_zero (S := S1024x128) hz2, View.ld_unit_zero (S := S1x1) hz2, View.ld_unit_zero (S := S1x1024) hz2, View.ld_unit_zero (S := S1x128) hz2]
  rfl

end Cert.KernelIdeal.Step

end
-- ==== Proof.KernelChain.lean ====
/-
  The accumulators point by point, and the array the kernel leaves.  The grid's 8 points run core by core
  (points 0-3: core 0's column tiles 0-3; points 4-7: core 1's tiles 4-7; point t works on column tile t).
  By induction on the point, what the frame's run found in the three carried accumulators after point t is
  the fold of the step updates from zero over the points of t's core up to t; the output block a core's last
  point (3, 7) writes back is the result row of the accumulators after that point.
-/
import proofs.«133030_j19688130085114_2_alg».proof.Proof.KernelStep

noncomputable section

namespace Cert.KernelIdeal.Chain

open Idealize.ShloMosaic Idealize.ShloMosaic.TcCoe Idealize.SL.Sem Cert.KernelIdeal Cert.KernelIdeal.Gen
open Idealize.ShloMosaic.Pipeline (Dat)
open Cert.KernelIdeal.Step

variable {F : FTy → Type} [FloatOps F]
variable (m : (ℓ : Loc nD τ sig) → Buf (Elt F) ℓ) (ρ : Dev nD → PrngReg)

/-- The three accumulators (total, row sums, energy terms) as one value. -/
abbrev Acc (F : FTy → Type) : Type := Vec F S1x1 .f32 × Vec F S1x1024 .f32 × Vec F S1x128 .f32

/-- The zero start. -/
def zeroAcc : Acc F := (k0_pay4, k0_pay5, k0_pay6)

/-- One step at point `t`: each accumulator updated with the point's tile. -/
def next (c : Dev nD) (t : Fin cfg0.N) (p : Acc F) : Acc F :=
  (stepTotal (grid0.coords t) (iblk m c 1 t) p.1,
   stepRows (grid0.coords t) (iblk m c 1 t) p.2.1,
   stepEnergy (grid0.coords t) (iblk m c 0 t) (iblk m c 1 t) p.2.2)

/-- The accumulators after point `n`: restarted from zero at a core's first point, else carried on. -/
def acc (c : Dev nD) : (n : ℕ) → n < cfg0.N → Acc F
  | 0, h => next m c ⟨0, h⟩ zeroAcc
  | n + 1, h => next m c ⟨n + 1, h⟩ (if (n + 1) % 4 = 0 then zeroAcc else acc c n (Nat.lt_of_succ_lt h))

/-- What the run found in the carried accumulators after point `n` is `acc`. -/
theorem scratch_eq (c : Dev nD) : ∀ (n : ℕ) (h : n < cfg0.N), (outsAt0 m c n h).2 = acc m c n h
  | 0, h => by
    have h0 : (⟨0, h⟩ : Fin cfg0.N).val % 4 = 0 := rfl
    have h1 : ¬(⟨0, h⟩ : Fin cfg0.N).val % 4 = 3 := by show ¬(0 : ℕ) % 4 = 3; decide
    rw [outsAt0_A m c ⟨0, h⟩ h0 h1]
    dsimp only
    rw [total_A, rows_A, energy_A]
    rfl
  | n + 1, h => by
    have hN : cfg0.N = 8 := N_0
    by_cases h0 : (n + 1) % 4 = 0
    · have h1 : ¬(n + 1) % 4 = 3 := by omega
      rw [outsAt0_A m c ⟨n + 1, h⟩ h0 h1]
      dsimp only
      rw [total_A, rows_A, energy_A]
      unfold acc
      rw [if_pos h0]
      rfl
    · have ih := scratch_eq c n (Nat.lt_of_succ_lt h)
      by_cases h1 : (n + 1) % 4 = 3
      · rw [outsAt0_C m c ⟨n + 1, h⟩ h0 h1]
        dsimp only
        rw [total_C, rows_C, energy_C]
        unfold acc
        rw [if_neg h0, ← ih]
        rfl
      · rw [outsAt0_B m c ⟨n + 1, h⟩ h0 h1]
        dsimp only
        rw [total_B, rows_B, energy_B]
        unfold acc
        rw [if_neg h0, ← ih]
        rfl

/-- The output block a core's last point writes: the result row of the accumulators after that point. -/
theorem out_eq (c : Dev nD) (n : ℕ) (h : n + 1 < cfg0.N) (h1 : (n + 1) % 4 = 3) :
    (outsAt0 m c (n + 1) h).1
      = resultRow (iblk m c 0 ⟨n + 1, h⟩) (acc m c (n + 1) h).2.1 (acc m c (n + 1) h).1 (acc m c (n + 1) h).2.2 := by
  have h0 : ¬(n + 1) % 4 = 0 := by omega
  have ih := scratch_eq m c n (Nat.lt_of_succ_lt h)
  rw [outsAt0_C m c ⟨n + 1, h⟩ h0 h1]
  dsimp only
  rw [result_C]
  unfold acc
  rw [if_neg h0, ← ih]
  rfl

end Cert.KernelIdeal.Chain

end
-- ==== Proof.KernelArray.lean ====
/-
  The array the kernel leaves, and the host's last lines.  The region's output is a [2, 1, 128] array: row a is
  written back once, after core a's last grid point (point 3 for core 0, point 7 for core 1), and holds that
  core's result row.  The two write-backs cover the array, so after the region it is that two-row array; the
  host then takes the two rows as [128] vectors and adds them.
-/
import proofs.«133030_j19688130085114_2_alg».proof.Proof.KernelChain
import Idealize.ShloMosaic.Lib.StableHlo.Run
import Idealize.ShloMosaic.Lib.ValueIdx

noncomputable section

namespace Cert.KernelIdeal.Arr

open Idealize.ShloMosaic Idealize.ShloMosaic.TcCoe Idealize.SL.Sem Cert.KernelIdeal Cert.KernelIdeal.Gen
open Idealize.ShloMosaic.Pipeline (Dat)
open Cert.KernelIdeal.Step Cert.KernelIdeal.Chain

variable {F : FTy → Type} [FloatOps F]
variable (m : (ℓ : Loc nD τ sig) → Buf (Elt F) ℓ) (ρ : Dev nD → PrngReg)

theorem lt3 : 3 < cfg0.N := by rw [show cfg0.N = 8 from N_0]; decide
theorem lt7 : 7 < cfg0.N := by rw [show cfg0.N = 8 from N_0]; decide

/-- Core 0's result row: from the accumulators after point 3. -/
def row0 (c : Dev nD) : Vec F S1x1x128 .f32 :=
  resultRow (iblk m c 0 ⟨3, lt3⟩) (acc m c 3 lt3).2.1 (acc m c 3 lt3).1 (acc m c 3 lt3).2.2
/-- Core 1's result row: from the accumulators after point 7. -/
def row1 (c : Dev nD) : Vec F S1x1x128 .f32 :=
  resultRow (iblk m c 0 ⟨7, lt7⟩) (acc m c 7 lt7).2.1 (acc m c 7 lt7).1 (acc m c 7 lt7).2.2

/-- The [2, 1, 128] array the region leaves: row `a` is core `a`'s result row. -/
def G (c : Dev nD) : Buf (Elt F) ((c : Thread nD τ).loc main_v0) :=
  fun (j : S2x1x128.Idx) =>
    if (j 0).val = 0 then row0 m c (ValueIdx.ix3 (0 : Fin 1) (0 : Fin 1) (j 2)) else row1 m c (ValueIdx.ix3 (0 : Fin 1) (0 : Fin 1) (j 2))

/-- The write-back after a core's last point writes that core's row of `G`. -/
theorem flushed_eq (c : Dev nD) (t : Fin cfg0.N) (hf : (cfg0.win 2).flush t = true) :
    (dats m 0 c).flushed 2 t = ((cfg0.win 2).blk t).view.read (Elt F) (G m c) := by
  have hN : cfg0.N = 8 := N_0
  have h3 : t.val % 4 = 3 := (flush0_2 t).mp hf
  have ht : t = t0_3 ∨ t = t0_7 := by
    have := t.isLt
    rcases (show t.val = 3 ∨ t.val = 7 by omega) with h | h
    · exact Or.inl (Fin.ext h)
    · exact Or.inr (Fin.ext h)
  show (cfg0.win 2).cut (grid0.coords t) ((dats m 0 c).after 2 t) = _
  rw [after0_2]
  rcases ht with rfl | rfl
  · rw [show (outsAt0 m c (t0_3 : Fin cfg0.N).val (t0_3 : Fin cfg0.N).isLt).1 = row0 m c from out_eq m c 2 lt3 rfl]
    funext y
    rw [View.read_apply]
    show row0 m c ((cfg0.win 2).xinj (grid0.coords t0_3) y) = G m c (((cfg0.win 2).blk t0_3).view.emb y)
    have hy0 : (y 0).val < 1 := lt_of_lt_of_eq (y 0).isLt (by decide +kernel : win0_2.xsize (grid0.coords t0_3) 0 = 1)
    have hy1 : (y 1).val < 1 := lt_of_lt_of_eq (y 1).isLt (by decide +kernel : win0_2.xsize (grid0.coords t0_3) 1 = 1)
    have he0 : ((((cfg0.win 2).blk t0_3).view.emb y) 0).val = 0 := by
      show win0_2.index t0_3 0 * 1 + 1 * (y 0).val = 0
      rw [show win0_2.index t0_3 0 = 0 from by decide +kernel]; omega
    have he2 : ((((cfg0.win 2).blk t0_3).view.emb y) 2).val = (y 2).val := by
      show win0_2.index t0_3 2 * 128 + 1 * (y 2).val = (y 2).val
      rw [show win0_2.index t0_3 2 = 0 from by decide +kernel]; omega
    unfold G
    dsimp only
    rw [if_pos he0]
    refine congrArg (row0 m c) (funext fun a => Fin.ext ?_)
    match a with
    | ⟨0, _⟩ => show (y 0).val = 0; omega
    | ⟨1, _⟩ => show (y 1).val = 0; omega
    | ⟨2, _⟩ => show (y 2).val = ((((cfg0.win 2).blk t0_3).view.emb y) 2).val; rw [he2]
  · rw [show (outsAt0 m c (t0_7 : Fin cfg0.N).val (t0_7 : Fin cfg0.N).isLt).1 = row1 m c from out_eq m c 6 lt7 rfl]
    funext y
    rw [View.read_apply]
    show row1 m c ((cfg0.win 2).xinj (grid0.coords t0_7) y) = G m c (((cfg0.win 2).blk t0_7).view.emb y)
    have hy0 : (y 0).val < 1 := lt_of_lt_of_eq (y 0).isLt (by decide +kernel : win0_2.xsize (grid0.coords t0_7) 0 = 1)
    have hy1 : (y 1).val < 1 := lt_of_lt_of_eq (y 1).isLt (by decide +kernel : win0_2.xsize (grid0.coords t0_7) 1 = 1)
    have he0 : ((((cfg0.win 2).blk t0_7).view.emb y) 0).val = 1 := by
      show win0_2.index t0_7 0 * 1 + 1 * (y 0).val = 1
      rw [show win0_2.index t0_7 0 = 1 from by decide +kernel]; omega
    have he2 : ((((cfg0.win 2).blk t0_7).view.emb y) 2).val = (y 2).val := by
      show win0_2.index t0_7 2 * 128 + 1 * (y 2).val = (y 2).val
      rw [show win0_2.index t0_7 2 = 0 from by decide +kernel]; omega
    unfold G
    dsimp only
    rw [if_neg (by rw [he0]; decide)]
    refine congrArg (row1 m c) (funext fun a => Fin.ext ?_)
    match a with
    | ⟨0, _⟩ => show (y 0).val = 0; omega
    | ⟨1, _⟩ => show (y 1).val = 0; omega
    | ⟨2, _⟩ => show (y 2).val = ((((cfg0.win 2).blk t0_7).view.emb y) 2).val; rw [he2]

/-- The two write-backs cover the array: row 0 by point 3's block, row 1 by point 7's. -/
theorem cover (c : Dev nD) (i : ((cfg0.win 2).arr.view.loc (c : Thread nD τ)).2.ty.Idx) :
    ∃ t : Fin cfg0.N, (cfg0.win 2).flush t = true ∧ i ∈ ((cfg0.win 2).blk t).view.set := by
  have h0 : (i 0 : Nat) < 2 := (i 0).isLt
  have h1 : (i 1 : Nat) < 1 := (i 1).isLt
  have h2 : (i 2 : Nat) < 128 := (i 2).isLt
  by_cases hc : (i 0 : Nat) = 0
  · refine ⟨t0_3, (flush0_2 t0_3).mpr rfl, ?_⟩
    show i ∈ ((View.whole main_v0).slice (win0_2.rect t0_3)).set
    rw [View.set_slice_whole, Rect.mem_set_unit]
    intro a
    match a with
    | ⟨0, _⟩ =>
      show win0_2.index t0_3 0 * win0_2.size 0 ≤ (i 0 : Nat) ∧ (i 0 : Nat) < win0_2.index t0_3 0 * win0_2.size 0 + win0_2.xsize (grid0.coords t0_3) 0
      rw [show win0_2.index t0_3 0 * win0_2.size 0 = 0 from by decide +kernel, show win0_2.xsize (grid0.coords t0_3) 0 = 1 from by decide +kernel]; omega
    | ⟨1, _⟩ =>
      show win0_2.index t0_3 1 * win0_2.size 1 ≤ (i 1 : Nat) ∧ (i 1 : Nat) < win0_2.index t0_3 1 * win0_2.size 1 + win0_2.xsize (grid0.coords t0_3) 1
      rw [show win0_2.index t0_3 1 * win0_2.size 1 = 0 from by decide +kernel, show win0_2.xsize (grid0.coords t0_3) 1 = 1 from by decide +kernel]; omega
    | ⟨2, _⟩ =>
      show win0_2.index t0_3 2 * win0_2.size 2 ≤ (i 2 : Nat) ∧ (i 2 : Nat) < win0_2.index t0_3 2 * win0_2.size 2 + win0_2.xsize (grid0.coords t0_3) 2
      rw [show win0_2.index t0_3 2 * win0_2.size 2 = 0 from by decide +kernel, show win0_2.xsize (grid0.coords t0_3) 2 = 128 from by decide +kernel]; omega
  · refine ⟨t0_7, (flush0_2 t0_7).mpr rfl, ?_⟩
    show i ∈ ((View.whole main_v0).slice (win0_2.rect t0_7)).set
    rw [View.set_slice_whole, Rect.mem_set_unit]
    intro a
    match a with
    | ⟨0, _⟩ =>
      show win0_2.index t0_7 0 * win0_2.size 0 ≤ (i 0 : Nat) ∧ (i 0 : Nat) < win0_2.index t0_7 0 * win0_2.size 0 + win0_2.xsize (grid0.coords t0_7) 0
      rw [show win0_2.index t0_7 0 * win0_2.size 0 = 1 from by decide +kernel, show win0_2.xsize (grid0.coords t0_7) 0 = 1 from by decide +kernel]; omega
    | ⟨1, _⟩ =>
      show win0_2.index t0_7 1 * win0_2.size 1 ≤ (i 1 : Nat) ∧ (i 1 : Nat) < win0_2.index t0_7 1 * win0_2.size 1 + win0_2.xsize (grid0.coords t0_7) 1
      rw [show win0_2.index t0_7 1 * win0_2.size 1 = 0 from by decide +kernel, show win0_2.xsize (grid0.coords t0_7) 1 = 1 from by decide +kernel]; omega
    | ⟨2, _⟩ =>
      show win0_2.index t0_7 2 * win0_2.size 2 ≤ (i 2 : Nat) ∧ (i 2 : Nat) < win0_2.index t0_7 2 * win0_2.size 2 + win0_2.xsize (grid0.coords t0_7) 2
      rw [show win0_2.index t0_7 2 * win0_2.size 2 = 0 from by decide +kernel, show win0_2.xsize (grid0.coords t0_7) 2 = 128 from by decide +kernel]; omega

/-- So the region's output array ends as the two result rows. -/
theorem final (c : Dev nD) : (dats m 0 c).arrAt 2 cfg0.N = G m c :=
  (dats m 0 c).arrAt_eq_of_cover 2 (G m c) (flushed_eq m c) (cover c)

/-- The host's last lines on a [2, 1, 128] array: its two rows, as [128] vectors, added. -/
def tailOf (g : (⟨S2x1x128, .f32⟩ : BufTy).Contents (Elt F)) : (⟨S128, .f32⟩ : BufTy).Contents (Elt F) :=
  addf (shapeCast S128 (extractStridedSlice S1x1x128 ![0, 0, 0] g slices_S2x1x128_S1x1x128_0_0_0) shapeCasts_S1x1x128_S128)
    (shapeCast S128 (extractStridedSlice S1x1x128 ![1, 0, 0] g slices_S2x1x128_S1x1x128_1_0_0) shapeCasts_S1x1x128_S128)

/-- What the program returns: the host's last lines applied to the two result rows. -/
theorem tail_eq (c : Dev nD) :
    Pipeline.afterTail₀ cfgs (dats m) 0 (V0 m) [hostOps1] c main_v5 = tailOf (G m c) := by
  unfold Pipeline.afterTail₀
  show StableHlo.after hostOps1 _ (Proc.devRef .tc main_v5) = _
  after_results
  rw [(Pipeline.withArrays_arr spec0 launch0.win.arr_inj c _ _ 2).trans (final m c)]
  rfl

/-- The kernel's run with its result named: every weakly fair execution terminates with the result at the sum of
    the two cores' result rows, the arguments unchanged. -/
theorem run : θ_run defs (onTc (τ := τ) (main (F := F))) ⟨m, fun _ => 0, ρ⟩ (fun r => ∀ c : Dev nD,
      r.2.mem ((c.tc : Thread nD τ).loc main_v5) = tailOf (G m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v5 (Pipeline.mem_restRefs_of main_v5 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Arr

end
-- ==== Proof.TileValues.lean ====
/-
  One grid step's arithmetic on real inputs.  At grid point (c, s) the kernel holds column tile
  T = 4c + s of the couplings W (all 1024 rows, 128 lanes) and the whole spin array V.  With real
  entries every quantity the step computes is (the coercion of) a real number named in the energy
  expansion: the masked tile U, its column sums, its part of the row sums, its total, its part of the
  quadratic form and of the column term, and the three running accumulators' updates.
-/
import proofs.«133030_j19688130085114_2_alg».proof.Proof.Gen.KernelIdeal.Skeleton
import proofs.«133030_j19688130085114_2_alg».proof.Proof.EnergyLaw
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.TcCoe Idealize.SL.Sem Cert.KernelIdeal Cert.KernelIdeal.Gen
open Idealize.ShloMosaic.ValueIdx

/-- The column tile a grid point works on. -/
def tileOf (i : grid0.Coords) : Fin 8 := Potts.tile (i 0) (i 1)

variable (W : Fin 1024 → Fin 1024 → ℝ) (V : Fin 128 → Fin 1024 → ℝ)

/-- Column tile `T` of `W` as the [1024, 128] block of extended reals the step loads. -/
def wBlock (T : Fin 8) : Vec Ideal S1024x128 .f32 := fun j => ((W (j 0) (Potts.col T (j 1)) : ℝ) : EReal)
/-- The whole spin array as the [128, 1024] block the step loads. -/
def vFull : Vec Ideal S128x1024 .f32 := fun j => ((V (j 0) (j 1) : ℝ) : EReal)
/-- The spins at tile `T`'s columns: the [128, 128] block the step loads. -/
def vTile (T : Fin 8) : Vec Ideal S128x128 .f32 := fun j => ((V (j 0) (Potts.col T (j 1)) : ℝ) : EReal)

/-- A natural number below 2^31, as a 32-bit word read signed, is itself. -/
theorem toInt_small (n : Nat) (h : n < 2 ^ 31) : (BitVec.ofNat 32 n).toInt = (n : Int) := by
  rw [BitVec.toInt_ofNat']
  exact Int.bmod_eq_of_le (by omega) (by omega)

/-- The mask comparison on words is the comparison of the numbers: nothing wraps, every value is below 2048. -/
theorem mask_word (c : Fin 2) (s : Fin 4) (r : Fin 1024) (l : Fin 128) :
    IntOp.cmpi .sle (BitVec.ofNat 32 r.val)
        (IntOp.addi (BitVec.ofNat 32 l.val)
          (Scalar.muli (Scalar.addi (Scalar.muli (BitVec.ofNat 32 c.val) 4#32) (BitVec.ofNat 32 s.val)) 128#32))
      = 1#1 ↔ r.val ≤ l.val + 128 * (4 * c.val + s.val) := by
  have hc := c.isLt
  have hs := s.isLt
  have hr := r.isLt
  have hl := l.isLt
  have hw : IntOp.addi (BitVec.ofNat 32 l.val)
          (Scalar.muli (Scalar.addi (Scalar.muli (BitVec.ofNat 32 c.val) 4#32) (BitVec.ofNat 32 s.val)) 128#32)
        = BitVec.ofNat 32 (l.val + (c.val * 4 + s.val) * 128) := by
    simp only [IntOp.addi, Scalar.muli, Scalar.addi, IntOp.muli, BitVec.ofNat_add, BitVec.ofNat_mul]
  rw [IntOp.cmpi_sle, hw, toInt_small _ (by omega), toInt_small _ (by omega)]
  omega

/-- The masked tile at (r, l): the select on the mask bit. -/
theorem pay7_apply (i : grid0.Coords) (v7 : Vec Ideal S1024x128 .f32) (r : Fin 1024) (l : Fin 128) :
    k0_pay7 (F := Ideal) i v7 (ix2 r l)
      = Scalar.select (IntOp.cmpi .sle (BitVec.ofNat 32 r.val)
          (IntOp.addi (BitVec.ofNat 32 l.val)
            (Scalar.muli (Scalar.addi (Scalar.muli (BitVec.ofNat 32 (i 0).val) 4#32) (BitVec.ofNat 32 (i 1).val)) 128#32)))
          (v7 (ix2 r l)) (Ideal.ofBits .f32 0x00000000#32) := by
  have h0 : iota .tc S1024x128 32 [0] iota_S1024x128_d0_w32 (ix2 r l) = BitVec.ofNat 32 r.val :=
    iota_single_apply .tc S1024x128 32 0 _ (ix2 r l)
  have h1 : iota .tc S1024x128 32 [1] iota_S1024x128_d1_w32 (ix2 r l) = BitVec.ofNat 32 l.val :=
    iota_single_apply .tc S1024x128 32 1 _ (ix2 r l)
  show Scalar.select (IntOp.cmpi .sle (iota .tc S1024x128 32 [0] iota_S1024x128_d0_w32 (ix2 r l))
      (IntOp.addi (iota .tc S1024x128 32 [1] iota_S1024x128_d1_w32 (ix2 r l)) _)) _ _ = _
  rw [h0, h1]
  rfl

/-- A finite sum of coerced reals is the coerced sum. -/
theorem coe_sum {ι : Type} (s : Finset ι) (f : ι → ℝ) :
    ∑ k ∈ s, ((f k : ℝ) : EReal) = ((∑ k ∈ s, f k : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- A lane sum of a [1024, 128] tile over its rows, at lane l. -/
theorem reduce_rows (src : FVec Ideal S1024x128 .f32) (h : S1024x128.Reduces [0] S128) (hφ : FKind.Formats .f32)
    (hacc : (0x00000000#32 : BitVec 32) = 0x00000000#32) (l : Fin 128) :
    multiReduction .add [0] S128 src 0x00000000#32 h hφ hacc (ix1 l) = ∑ r : Fin 1024, src (ix2 r l) := by
  refine (Ideal.multiReduction_add_single src 0x00000000#32 h hφ hacc (ix1 l)).trans ?_
  refine Finset.sum_congr rfl (fun r _ => congrArg src ?_)
  funext c
  match c with
  | ⟨0, _⟩ => rfl
  | ⟨1, _⟩ => rfl

/-- A lane sum of a [1024, 128] tile over its lanes, at row r. -/
theorem reduce_lanes (src : FVec Ideal S1024x128 .f32) (h : S1024x128.Reduces [1] S1024) (hφ : FKind.Formats .f32)
    (hacc : (0x00000000#32 : BitVec 32) = 0x00000000#32) (r : Fin 1024) :
    multiReduction .add [1] S1024 src 0x00000000#32 h hφ hacc (ix1 r) = ∑ l : Fin 128, src (ix2 r l) := by
  refine (Ideal.multiReduction_add_single src 0x00000000#32 h hφ hacc (ix1 r)).trans ?_
  refine Finset.sum_congr rfl (fun l _ => congrArg src ?_)
  funext c
  match c with
  | ⟨0, _⟩ => rfl
  | ⟨1, _⟩ => rfl

/-- A lane sum of a [1, 128] row over its lanes. -/
theorem reduce_row (src : FVec Ideal S1x128 .f32) (h : S1x128.Reduces [1] S1) (hφ : FKind.Formats .f32)
    (hacc : (0x00000000#32 : BitVec 32) = 0x00000000#32) (u : Fin 1) :
    multiReduction .add [1] S1 src 0x00000000#32 h hφ hacc (ix1 u) = ∑ l : Fin 128, src (ix2 u l) := by
  refine (Ideal.multiReduction_add_single src 0x00000000#32 h hφ hacc (ix1 u)).trans ?_
  refine Finset.sum_congr rfl (fun l _ => congrArg src ?_)
  funext c
  match c with
  | ⟨0, _⟩ => rfl
  | ⟨1, _⟩ => rfl

/-- The masked tile: entries with row index above the global column index are zeroed. -/
theorem masked_tile (i : grid0.Coords) :
    k0_pay7 (F := Ideal) i (wBlock W (tileOf i)) = fun j => ((Potts.U W (tileOf i) (j 0) (j 1) : ℝ) : EReal) := by
  funext j
  obtain ⟨r, l, rfl⟩ : ∃ (r : Fin 1024) (l : Fin 128), j = ix2 r l := ⟨j 0, j 1, eq_ix2 j⟩
  rw [pay7_apply]
  show _ = ((Potts.U W (tileOf i) r l : ℝ) : EReal)
  unfold Potts.U
  by_cases h : r.val ≤ l.val + 128 * (tileOf i).val
  · rw [if_pos h, (mask_word (i 0) (i 1) r l).mpr h, select_one]
    rfl
  · rw [if_neg h, eq_zero_of_ne_one (fun hb => h ((mask_word (i 0) (i 1) r l).mp hb)), select_zero,
      Ideal.ofBits_zero_f32, EReal.coe_zero]

/-- Its column sums. -/
theorem col_sums (i : grid0.Coords) :
    k0_pay8 (F := Ideal) i (wBlock W (tileOf i)) = fun l => ((Potts.colSum W (tileOf i) (l 0) : ℝ) : EReal) := by
  funext j
  obtain ⟨l, rfl⟩ : ∃ l : Fin 128, j = ix1 l := ⟨j 0, eq_ix1 j⟩
  unfold k0_pay8
  refine (reduce_rows _ _ _ _ l).trans ?_
  rw [masked_tile]
  exact coe_sum Finset.univ (fun r => Potts.U W (tileOf i) r l)

/-- Its part of the row sums. -/
theorem row_sums (i : grid0.Coords) :
    k0_pay9 (F := Ideal) i (wBlock W (tileOf i)) = fun r => ((Potts.rowSum W (tileOf i) (r 0) : ℝ) : EReal) := by
  funext j
  obtain ⟨r, rfl⟩ : ∃ r : Fin 1024, j = ix1 r := ⟨j 0, eq_ix1 j⟩
  unfold k0_pay9
  refine (reduce_lanes _ _ _ _ r).trans ?_
  rw [masked_tile]
  exact coe_sum Finset.univ (fun l => Potts.U W (tileOf i) r l)

/-- The tile's total as the kernel forms it: the column sums as a [1, 128] row, summed over the lanes, read at (0, 0). -/
theorem tile_total (i : grid0.Coords) :
    extractAt ![0, 0] (shapeCast S1x1 (multiReduction .add [1] S1
        (shapeCast S1x128 (k0_pay8 (F := Ideal) i (wBlock W (tileOf i))) shapeCasts_S128_S1x128)
        0x00000000#32 reduces_S1x128_S1 (.inl rfl) rfl) shapeCasts_S1_S1x1) inpos_S1x1_p0_0
      = ((Potts.sTile W (tileOf i) : ℝ) : EReal) := by
  have hix : (fun a => ⟨(![0, 0] : Fin 2 → Nat) a, inpos_S1x1_p0_0 a⟩ : S1x1.Idx) = ix2 (0 : Fin 1) (0 : Fin 1) := by
    funext c
    match c with
    | ⟨0, _⟩ => rfl
    | ⟨1, _⟩ => rfl
  unfold extractAt
  rw [hix]
  refine (shapeCast_a_1a_apply _ _ (0 : Fin 1) (0 : Fin 1)).trans ?_
  refine (reduce_row _ _ _ _ (0 : Fin 1)).trans ?_
  have hl : ∀ l : Fin 128, shapeCast S1x128 (k0_pay8 (F := Ideal) i (wBlock W (tileOf i))) shapeCasts_S128_S1x128 (ix2 (0 : Fin 1) l)
      = ((Potts.colSum W (tileOf i) l : ℝ) : EReal) := fun l => by
    refine (shapeCast_a_1a_apply _ _ (0 : Fin 1) l).trans ?_
    rw [col_sums]
  rw [Finset.sum_congr rfl (fun l _ => hl l)]
  exact coe_sum Finset.univ (fun l => Potts.colSum W (tileOf i) l)

/-- The running total after the step. -/
theorem total_step (i : grid0.Coords) (a : ℝ) :
    k0_pay12 (F := Ideal) i (wBlock W (tileOf i)) (fun _ => ((a : ℝ) : EReal))
      = fun _ => ((a + Potts.sTile W (tileOf i) : ℝ) : EReal) := by
  funext j
  unfold k0_pay12
  show shapeCast S1x1 _ shapeCasts_S1x1_S1x1 j = _
  rw [shapeCast_self]
  show ((a : ℝ) : EReal) + extractAt (s := S1x1) ![0, 0] _ inpos_S1x1_p0_0 = _
  rw [tile_total, EReal.coe_add]

/-- The three accumulators' zero start. -/
theorem zero_total : k0_pay4 (F := Ideal) = fun _ => ((0 : ℝ) : EReal) := by
  unfold k0_pay4
  show shapeCast S1x1 _ shapeCasts_S1x1_S1x1 = _
  rw [shapeCast_self]
  funext j
  show Ideal.ofBits .f32 0x00000000#32 = _
  rw [Ideal.ofBits_zero_f32, EReal.coe_zero]
theorem zero_rows : k0_pay5 (F := Ideal) = fun _ => ((0 : ℝ) : EReal) := by
  unfold k0_pay5
  show shapeCast S1x1024 _ shapeCasts_S1x1024_S1x1024 = _
  rw [shapeCast_self]
  funext j
  show Ideal.ofBits .f32 0x00000000#32 = _
  rw [Ideal.ofBits_zero_f32, EReal.coe_zero]
theorem zero_energy : k0_pay6 (F := Ideal) = fun _ => ((0 : ℝ) : EReal) := by
  unfold k0_pay6
  show shapeCast S1x128 _ shapeCasts_S1x128_S1x128 = _
  rw [shapeCast_self]
  funext j
  show Ideal.ofBits .f32 0x00000000#32 = _
  rw [Ideal.ofBits_zero_f32, EReal.coe_zero]

end Cert.KernelIdeal.Tile

end
-- ==== Proof.TileSteps.lean ====
/-
  One grid step's arithmetic on real inputs, second part: the tile's share of the quadratic form
  (a [128,1024]·[1024,128] product with the masked tile, times the spins at the tile's columns, summed
  over the lanes), its share of the column term, the updates of the running row sums and of the running
  per-row energy terms, and the last step's result row  total - Σ_r V b r · rows r + energy b.
-/
import proofs.«133030_j19688130085114_2_alg».proof.Proof.TileValues

noncomputable section

namespace Cert.KernelIdeal.Tile

open Idealize.ShloMosaic Idealize.ShloMosaic.TcCoe Idealize.SL.Sem Cert.KernelIdeal Cert.KernelIdeal.Gen
open Idealize.ShloMosaic.ValueIdx

/-! ## Auxiliary facts: coercions of finite sums, the word for 2, and the non-pointwise operations read at an index -/

/-- The coercion of reals into the extended reals commutes with a finite sum. -/
theorem steps_coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The f32 word 0x40000000 denotes the real number 2. -/
theorem steps_ofBits_two : Ideal.ofBits .f32 0x40000000#32 = ((2 : ℝ) : EReal) := by
  simp [Ideal.ofBits, Ideal.ieee, -EReal.coe_mul]; norm_num

/-- A sum over the lanes (axis 1) of a [128, n] array, read at row b, is the sum over the n lanes of that row. -/
theorem steps_laneSum_apply {n : Nat} (src : FVec Ideal ⟨2, ![128, n]⟩ .f32)
    (h : (⟨2, ![128, n]⟩ : Shape).Reduces [1] ⟨1, ![128]⟩) (hφ : FKind.Formats .f32)
    (hacc : (0x00000000#32 : BitVec 32) = 0x00000000#32) (b : Fin 128) :
    multiReduction .add [1] ⟨1, ![128]⟩ src 0x00000000#32 h hφ hacc (ix1 b) = ∑ k : Fin n, src (ix2 b k) := by
  refine (Ideal.multiReduction_add_single src 0x00000000#32 h hφ hacc (ix1 b)).trans ?_
  refine Finset.sum_congr rfl fun k _ => congrArg src ?_
  funext a; apply Fin.ext
  match a with
  | ⟨0, _⟩ => rfl
  | ⟨1, _⟩ => rfl

/-- A [128] vector cast to [1, 1, 128] reads, at (u, v, i), the operand at i. -/
theorem steps_shapeCast_a_11a_apply {α : Type} (x : (⟨1, ![128]⟩ : Shape).Idx → α)
    (h : (⟨1, ![128]⟩ : Shape).ShapeCasts ⟨3, ![1, 1, 128]⟩) (u v : Fin 1) (i : Fin 128) :
    shapeCast ⟨3, ![1, 1, 128]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * 128 + i.val
    rw [hu, hv]; omega)

/-- The [128,1024]·[1024,128] product into the zero splat (lhs axis 1 contracted with rhs axis 0), read at (b, l),
    is the sum over the contracted coordinate of the products of the entries. -/
theorem steps_matmul_apply_ix (A : FVec Ideal S128x1024 .f32) (B : FVec Ideal S1024x128 .f32) (b l : Fin 128) :
    matmul dot_S128x1024_S1024x128_S128x128_1_0_0_1_n_n (some .fp32) A B
        (constant (F := Ideal) S128x128 .f32 0x00000000#32) (ix2 b l)
      = ∑ k : Fin 1024, A (ix2 b k) * B (ix2 k l) := by
  show FloatOps.matmul dot_S128x1024_S1024x128_S128x128_1_0_0_1_n_n (some .fp32) A B _ (ix2 b l) = _
  rw [Ideal.matmul_constant_zero_apply,
    ← Equiv.sum_comp (contrEquiv1 dot_S128x1024_S1024x128_S128x128_1_0_0_1_n_n 1024 rfl rfl).symm]
  refine Finset.sum_congr rfl fun c _ => ?_
  have c2 := contrEquiv1_symm_val dot_S128x1024_S1024x128_S128x128_1_0_0_1_n_n 1024 rfl rfl c
  have l2 : dot_S128x1024_S1024x128_S128x128_1_0_0_1_n_n.lhsIdx (ix2 b l)
      ((contrEquiv1 dot_S128x1024_S1024x128_S128x128_1_0_0_1_n_n 1024 rfl rfl).symm c) = ix2 b c := by
    funext ax; apply Fin.ext
    match ax with
    | ⟨0, _⟩ => simp [DotDims.lhsIdx, dot_S128x1024_S1024x128_S128x128_1_0_0_1_n_n]; rfl
    | ⟨1, _⟩ => simp [DotDims.lhsIdx, dot_S128x1024_S1024x128_S128x128_1_0_0_1_n_n]; exact c2
  have r2 : dot_S128x1024_S1024x128_S128x128_1_0_0_1_n_n.rhsIdx (ix2 b l)
      ((contrEquiv1 dot_S128x1024_S1024x128_S128x128_1_0_0_1_n_n 1024 rfl rfl).symm c) = ix2 c l := by
    funext ax; apply Fin.ext
    match ax with
    | ⟨0, _⟩ => simp [DotDims.rhsIdx, dot_S128x1024_S1024x128_S128x128_1_0_0_1_n_n]; exact c2
    | ⟨1, _⟩ => simp [DotDims.rhsIdx, dot_S128x1024_S1024x128_S128x128_1_0_0_1_n_n]; rfl
  rw [l2, r2]

variable (W : Fin 1024 → Fin 1024 → ℝ) (V : Fin 128 → Fin 1024 → ℝ)

/-- Its part of the quadratic form, per batch row. -/
theorem quad_part (i : grid0.Coords) :
    k0_pay10 (F := Ideal) i (wBlock W (tileOf i)) (vFull V) (vTile V (tileOf i))
      = fun b => ((Potts.quad W (V (b 0)) (tileOf i) : ℝ) : EReal) := by
  funext j
  obtain ⟨b, rfl⟩ : ∃ b : Fin 128, j = ix1 b := ⟨j 0, eq_ix1 j⟩
  unfold k0_pay10
  rw [masked_tile W i]
  show _ = ((Potts.quad W (V b) (tileOf i) : ℝ) : EReal)
  refine (steps_laneSum_apply _ _ _ _ b).trans ?_
  unfold Potts.quad
  rw [← steps_coe_sum]
  refine Finset.sum_congr rfl fun l _ => ?_
  refine (mulf_apply _ _ _).trans ?_
  rw [EReal.coe_mul]
  refine congrArg₂ (· * ·) ?_ rfl
  refine (steps_matmul_apply_ix _ _ b l).trans ?_
  rw [← steps_coe_sum]
  refine Finset.sum_congr rfl fun k _ => ?_
  exact (EReal.coe_mul _ _).symm

/-- Its part of the column term, per batch row. -/
theorem col_term (i : grid0.Coords) :
    k0_pay11 (F := Ideal) i (wBlock W (tileOf i)) (vTile V (tileOf i))
      = fun b => ((Potts.colTerm W (V (b 0)) (tileOf i) : ℝ) : EReal) := by
  funext j
  obtain ⟨b, rfl⟩ : ∃ b : Fin 128, j = ix1 b := ⟨j 0, eq_ix1 j⟩
  unfold k0_pay11
  rw [col_sums W i]
  show _ = ((Potts.colTerm W (V b) (tileOf i) : ℝ) : EReal)
  refine (steps_laneSum_apply _ _ _ _ b).trans ?_
  unfold Potts.colTerm
  rw [← steps_coe_sum]
  refine Finset.sum_congr rfl fun l _ => ?_
  refine (mulf_apply _ _ _).trans ?_
  rw [EReal.coe_mul]
  refine congrArg₂ (· * ·) rfl ?_
  refine (broadcastTo_1b_ab_apply _ _ b l).trans ?_
  exact shapeCast_a_1a_apply _ _ 0 l

/-- The running row sums after the step. -/
theorem row_step (ρ acc : Fin 1024 → ℝ) :
    k0_pay1 (F := Ideal) (fun r => ((ρ (r 0) : ℝ) : EReal)) (fun j => ((acc (j 1) : ℝ) : EReal))
      = fun j => ((acc (j 1) + ρ (j 1) : ℝ) : EReal) := by
  funext j
  obtain ⟨u, l, rfl⟩ : ∃ (u : Fin 1) (l : Fin 1024), j = ix2 u l := ⟨j 0, j 1, eq_ix2 j⟩
  unfold k0_pay1
  show _ = ((acc l + ρ l : ℝ) : EReal)
  refine (congrFun (shapeCast_self _ _) _).trans ?_
  refine (addf_apply _ _ _).trans ?_
  rw [EReal.coe_add]
  refine congrArg₂ (· + ·) rfl ?_
  exact shapeCast_a_1a_apply _ _ u l

/-- The running per-row energy terms after the step. -/
theorem energy_step (q ct e : Fin 128 → ℝ) :
    k0_pay2 (F := Ideal) (fun b => ((q (b 0) : ℝ) : EReal)) (fun b => ((ct (b 0) : ℝ) : EReal)) (fun j => ((e (j 1) : ℝ) : EReal))
      = fun j => ((e (j 1) + (2 * q (j 1) - ct (j 1)) : ℝ) : EReal) := by
  funext j
  obtain ⟨u, l, rfl⟩ : ∃ (u : Fin 1) (l : Fin 128), j = ix2 u l := ⟨j 0, j 1, eq_ix2 j⟩
  unfold k0_pay2
  show _ = ((e l + (2 * q l - ct l) : ℝ) : EReal)
  refine (congrFun (shapeCast_self _ _) _).trans ?_
  refine (addf_apply _ _ _).trans ?_
  rw [EReal.coe_add, EReal.coe_sub, EReal.coe_mul, ← steps_ofBits_two]
  refine congrArg₂ (· + ·) rfl ?_
  refine (shapeCast_a_1a_apply _ _ u l).trans ?_
  rfl

/-- The last step's result row: total less the row term plus the energy terms. -/
theorem result_row (racc : Fin 1024 → ℝ) (s : ℝ) (e : Fin 128 → ℝ) :
    k0_pay3 (F := Ideal) (vFull V) (fun j => ((racc (j 1) : ℝ) : EReal)) (fun _ => ((s : ℝ) : EReal)) (fun j => ((e (j 1) : ℝ) : EReal))
      = fun j => ((s - ∑ r : Fin 1024, V (j 2) r * racc r + e (j 2) : ℝ) : EReal) := by
  funext j
  obtain ⟨u, v, b, rfl⟩ : ∃ (u v : Fin 1) (b : Fin 128), j = ix3 u v b := ⟨j 0, j 1, j 2, eq_ix3 j⟩
  unfold k0_pay3
  show _ = ((s - ∑ r : Fin 1024, V b r * racc r + e b : ℝ) : EReal)
  refine (steps_shapeCast_a_11a_apply _ _ u v b).trans ?_
  refine (addf_apply _ _ _).trans ?_
  rw [EReal.coe_add, EReal.coe_sub]
  refine congrArg₂ (· + ·) ?_ ?_
  · refine (subf_apply _ _ _).trans ?_
    refine congrArg₂ (· - ·) rfl ?_
    refine (steps_laneSum_apply _ _ _ _ b).trans ?_
    rw [← steps_coe_sum]
    refine Finset.sum_congr rfl fun k _ => ?_
    refine (mulf_apply _ _ _).trans ?_
    rw [EReal.coe_mul]
    refine congrArg₂ (· * ·) rfl ?_
    exact broadcastTo_1b_ab_apply _ _ b k
  · exact shapeCast_1a_a_apply _ _ b

end Cert.KernelIdeal.Tile

end
-- ==== Proof.RealAcc.lean ====
/-
  The three running accumulators over the reals.  Point n of the grid (n = 0 … 7) works on column tile n;
  the accumulators (total, row sums, per-batch-row energy terms 2·quad - colterm) restart from zero at the
  first point of a core (n = 0, 4) and are carried on otherwise.  After a core's last point (n = 3, 7) the
  row  total - Σ_r V b r · rows r + energy b  is that core's share of batch row b's pair energy.
-/
import proofs.«133030_j19688130085114_2_alg».proof.Proof.EnergyLaw

noncomputable section

namespace Potts

open Finset

variable (W : Fin 1024 → Fin 1024 → ℝ) (V : Fin 128 → Fin 1024 → ℝ)

/-- Total, row sums, energy terms. -/
abbrev RAcc : Type := ℝ × (Fin 1024 → ℝ) × (Fin 128 → ℝ)

/-- One step on column tile `T`. -/
def rNext (T : Fin 8) (p : RAcc) : RAcc :=
  (p.1 + sTile W T, fun r => p.2.1 r + rowSum W T r, fun b => p.2.2 b + (2 * quad W (V b) T - colTerm W (V b) T))

/-- The zero start. -/
def rZero : RAcc := (0, fun _ => 0, fun _ => 0)

/-- The column tile of grid point `n`. -/
def pt (n : ℕ) : Fin 8 := ⟨n % 8, Nat.mod_lt _ (by decide)⟩

/-- The accumulators after grid point `n`. -/
def rAcc : ℕ → RAcc
  | 0 => rNext W V (pt 0) rZero
  | n + 1 => rNext W V (pt (n + 1)) (if (n + 1) % 4 = 0 then rZero else rAcc n)

/-- The result row a core's last point writes, at batch row `b`. -/
def rowOut (p : RAcc) (b : Fin 128) : ℝ := p.1 - ∑ r : Fin 1024, V b r * p.2.1 r + p.2.2 b

/-- Points 0 … 3 are the four column tiles of core 0, points 4 … 7 those of core 1. -/
theorem pt_tile_0 (s : Fin 4) : pt s.val = tile 0 s := by
  refine Fin.ext ?_
  have hs := s.isLt
  show s.val % 8 = 4 * (0 : Fin 2).val + s.val
  have h0 : ((0 : Fin 2) : ℕ) = 0 := rfl
  rw [h0]
  omega

theorem pt_tile_1 (s : Fin 4) : pt (4 + s.val) = tile 1 s := by
  refine Fin.ext ?_
  have hs := s.isLt
  show (4 + s.val) % 8 = 4 * (1 : Fin 2).val + s.val
  have h1 : ((1 : Fin 2) : ℕ) = 1 := rfl
  rw [h1]
  omega

/-- After point 3: four steps from the zero start over core 0's tiles (no restart at 1, 2, 3). -/
theorem rAcc_3 :
    rAcc W V 3 = rNext W V (tile 0 3) (rNext W V (tile 0 2) (rNext W V (tile 0 1)
      (rNext W V (tile 0 0) rZero))) := by
  have e0 : pt 0 = tile 0 0 := pt_tile_0 0
  have e1 : pt 1 = tile 0 1 := pt_tile_0 1
  have e2 : pt 2 = tile 0 2 := pt_tile_0 2
  have e3 : pt 3 = tile 0 3 := pt_tile_0 3
  rw [← e0, ← e1, ← e2, ← e3]
  rfl

/-- After point 7: the accumulators restart at point 4 (4 % 4 = 0), then four steps over core 1's tiles. -/
theorem rAcc_7 :
    rAcc W V 7 = rNext W V (tile 1 3) (rNext W V (tile 1 2) (rNext W V (tile 1 1)
      (rNext W V (tile 1 0) rZero))) := by
  have e0 : pt 4 = tile 1 0 := pt_tile_1 0
  have e1 : pt 5 = tile 1 1 := pt_tile_1 1
  have e2 : pt 6 = tile 1 2 := pt_tile_1 2
  have e3 : pt 7 = tile 1 3 := pt_tile_1 3
  rw [← e0, ← e1, ← e2, ← e3]
  rfl

/-- Four steps from zero over tiles `T0 … T3` give the sums over the four tiles, and the result row
collects them as  total - Σ_r V b r · rows r + energy b. -/
theorem rowOut_four (T0 T1 T2 T3 : Fin 8) (b : Fin 128) :
    rowOut V (rNext W V T3 (rNext W V T2 (rNext W V T1 (rNext W V T0 rZero)))) b
      = (sTile W T0 + sTile W T1 + sTile W T2 + sTile W T3)
        - (∑ r : Fin 1024, V b r * (rowSum W T0 r + rowSum W T1 r + rowSum W T2 r + rowSum W T3 r))
        + ((2 * quad W (V b) T0 - colTerm W (V b) T0) + (2 * quad W (V b) T1 - colTerm W (V b) T1)
          + (2 * quad W (V b) T2 - colTerm W (V b) T2) + (2 * quad W (V b) T3 - colTerm W (V b) T3)) := by
  simp only [rowOut, rNext, rZero, zero_add]

/-- After point 3 the result row is core 0's share of the energy. -/
theorem rowOut_3 (b : Fin 128) : rowOut V (rAcc W V 3) b = coreEnergy W (V b) 0 := by
  rw [rAcc_3, rowOut_four]
  simp only [coreEnergy, Fin.sum_univ_four]

/-- After point 7 the result row is core 1's share of the energy. -/
theorem rowOut_7 (b : Fin 128) : rowOut V (rAcc W V 7) b = coreEnergy W (V b) 1 := by
  rw [rAcc_7, rowOut_four]
  simp only [coreEnergy, Fin.sum_univ_four]

end Potts

end
-- ==== Proof.KernelValue.lean ====
/-
  The kernel's result on real inputs.  When the spin array and the couplings are real (coercions of real arrays
  V and W), every block the grid steps load is a block of V or W — point t loads all of V, the columns
  128·t … 128·t + 127 of W, and the same columns of V — so by induction over the points the three accumulators
  are the coercions of the real accumulators, each core's result row is the coercion of its share of the pair
  energy, and the host's sum of the two rows is the coercion of their sum.
-/
import proofs.«133030_j19688130085114_2_alg».proof.Proof.KernelArray
import proofs.«133030_j19688130085114_2_alg».proof.Proof.TileSteps
import proofs.«133030_j19688130085114_2_alg».proof.Proof.RealAcc

noncomputable section

namespace Cert.KernelIdeal.Val

open Idealize.ShloMosaic Idealize.ShloMosaic.TcCoe Idealize.SL.Sem Cert.KernelIdeal Cert.KernelIdeal.Gen
open Idealize.ShloMosaic.Pipeline (Dat)
open Idealize.ShloMosaic.ValueIdx
open Cert.KernelIdeal.Step Cert.KernelIdeal.Chain Cert.KernelIdeal.Arr

variable (m : (ℓ : Loc nD τ sig) → Buf (Elt Ideal) ℓ)
variable (Wr : Fin 1024 → Fin 1024 → ℝ) (Vr : Fin 128 → Fin 1024 → ℝ)

/-- The index maps at every grid point, decided once over the 8 points: the spin window never moves, the coupling
    window sits at column block `t`, the spins' column offset is `128·t`, and point `t` is (core `t / 4`, step `t % 4`). -/
theorem idx_facts : ∀ t : Fin cfg0.N,
    win0_0.index t 0 = 0 ∧ win0_0.index t 1 = 0 ∧ win0_1.index t 0 = 0 ∧ win0_1.index t 1 = t.val
    ∧ k0_off1 (grid0.coords t) 0 = 0 ∧ k0_off1 (grid0.coords t) 1 = 128 * t.val
    ∧ (grid0.coords t 0).val = t.val / 4 ∧ (grid0.coords t 1).val = t.val % 4 :=
  (by decide +kernel : ∀ t : Fin grid0.N, _)

/-- Grid point `t` as a column tile. -/
def tpt (t : Fin cfg0.N) : Fin 8 := ⟨t.val, lt_of_lt_of_eq t.isLt N_0⟩

theorem tileOf_eq (t : Fin cfg0.N) : Tile.tileOf (grid0.coords t) = tpt t := by
  obtain ⟨_, _, _, _, _, _, h0, h1⟩ := idx_facts t
  apply Fin.ext
  show 4 * (grid0.coords t 0).val + (grid0.coords t 1).val = t.val
  omega

theorem tpt_eq (n : ℕ) (h : n < cfg0.N) : tpt ⟨n, h⟩ = Potts.pt n := by
  have : n < 8 := lt_of_lt_of_eq h N_0
  apply Fin.ext
  show n = n % 8
  omega

section Blocks

variable (c : Dev nD)
variable (hV : (m ((c : Thread nD τ).loc main_arg0) : S128x1024.Idx → EReal) = fun j => ((Vr (j 0) (j 1) : ℝ) : EReal))
variable (hW : (m ((c : Thread nD τ).loc main_arg1) : S1024x1024.Idx → EReal) = fun j => ((Wr (j 0) (j 1) : ℝ) : EReal))

include hV in
/-- Every point loads the whole spin array. -/
theorem iblk0_eq (t : Fin cfg0.N) : (iblk m c 0 t : Vec Ideal S128x1024 .f32) = Tile.vFull Vr := by
  obtain ⟨i00, i01, _, _, _, _, _, _⟩ := idx_facts t
  funext j
  unfold iblk
  rw [View.read_apply]
  show Gen.V m c main_arg0 (((cfg0.win 0).blk t).view.emb j) = _
  rw [V_main_arg0, hV]
  have e0 : (((cfg0.win 0).blk t).view.emb j) 0 = j 0 :=
    Fin.ext (by show win0_0.index t 0 * 128 + 1 * (j 0).val = (j 0).val; rw [i00]; omega)
  have e1 : (((cfg0.win 0).blk t).view.emb j) 1 = j 1 :=
    Fin.ext (by show win0_0.index t 1 * 1024 + 1 * (j 1).val = (j 1).val; rw [i01]; omega)
  show ((Vr ((((cfg0.win 0).blk t).view.emb j) 0) ((((cfg0.win 0).blk t).view.emb j) 1) : ℝ) : EReal) = ((Vr (j 0) (j 1) : ℝ) : EReal)
  rw [e0, e1]

include hW in
/-- Point `t` loads column tile `t` of the couplings. -/
theorem iblk1_eq (t : Fin cfg0.N) : (iblk m c 1 t : Vec Ideal S1024x128 .f32) = Tile.wBlock Wr (tpt t) := by
  obtain ⟨_, _, i10, i11, _, _, _, _⟩ := idx_facts t
  funext j
  unfold iblk
  rw [View.read_apply]
  show Gen.V m c main_arg1 (((cfg0.win 1).blk t).view.emb j) = _
  rw [V_main_arg1, hW]
  have e0 : (((cfg0.win 1).blk t).view.emb j) 0 = j 0 :=
    Fin.ext (by show win0_1.index t 0 * 1024 + 1 * (j 0).val = (j 0).val; rw [i10]; omega)
  have e1 : (((cfg0.win 1).blk t).view.emb j) 1 = Potts.col (tpt t) (j 1) :=
    Fin.ext (by show win0_1.index t 1 * 128 + 1 * (j 1).val = 128 * t.val + (j 1).val; rw [i11]; omega)
  show ((Wr ((((cfg0.win 1).blk t).view.emb j) 0) ((((cfg0.win 1).blk t).view.emb j) 1) : ℝ) : EReal)
    = ((Wr (j 0) (Potts.col (tpt t) (j 1)) : ℝ) : EReal)
  rw [e0, e1]

/-- The spins at point `t`'s columns. -/
theorem vCols_eq (t : Fin cfg0.N) : vCols (grid0.coords t) (Tile.vFull Vr) = Tile.vTile Vr (tpt t) := by
  obtain ⟨_, _, _, _, o0, o1, _, _⟩ := idx_facts t
  funext j
  unfold vCols
  show Tile.vFull Vr ((Rect.unit (s := S128x1024) (k0_off1 (grid0.coords t)) S128x128.size (k0_off1_inb (grid0.coords t))).emb j) = _
  have e0 : ((Rect.unit (s := S128x1024) (k0_off1 (grid0.coords t)) S128x128.size (k0_off1_inb (grid0.coords t))).emb j) 0 = j 0 :=
    Fin.ext (by show k0_off1 (grid0.coords t) 0 + 1 * (j 0).val = (j 0).val; rw [o0]; omega)
  have e1 : ((Rect.unit (s := S128x1024) (k0_off1 (grid0.coords t)) S128x128.size (k0_off1_inb (grid0.coords t))).emb j) 1 = Potts.col (tpt t) (j 1) :=
    Fin.ext (by show k0_off1 (grid0.coords t) 1 + 1 * (j 1).val = 128 * t.val + (j 1).val; rw [o1]; omega)
  show ((Vr (((Rect.unit (s := S128x1024) (k0_off1 (grid0.coords t)) S128x128.size (k0_off1_inb (grid0.coords t))).emb j) 0)
      (((Rect.unit (s := S128x1024) (k0_off1 (grid0.coords t)) S128x128.size (k0_off1_inb (grid0.coords t))).emb j) 1) : ℝ) : EReal)
    = ((Vr (j 0) (Potts.col (tpt t) (j 1)) : ℝ) : EReal)
  rw [e0, e1]

/-- Real accumulators as the kernel's three accumulator arrays. -/
def emb3 (p : Potts.RAcc) : Acc Ideal :=
  (fun _ => ((p.1 : ℝ) : EReal), fun j => ((p.2.1 (j 1) : ℝ) : EReal), fun j => ((p.2.2 (j 1) : ℝ) : EReal))

theorem zero_real : (zeroAcc : Acc Ideal) = emb3 Potts.rZero :=
  Prod.ext Tile.zero_total (Prod.ext Tile.zero_rows Tile.zero_energy)

include hV hW in
/-- One step on real accumulators is the real step on column tile `t`. -/
theorem next_real (t : Fin cfg0.N) (p : Potts.RAcc) :
    next m c t (emb3 p) = emb3 (Potts.rNext Wr Vr (tpt t) p) := by
  unfold next
  rw [iblk0_eq m Vr c hV t, iblk1_eq m Wr c hW t]
  refine Prod.ext ?_ (Prod.ext ?_ ?_)
  · show k0_pay12 (grid0.coords t) (Tile.wBlock Wr (tpt t)) (fun _ => ((p.1 : ℝ) : EReal)) = _
    rw [← tileOf_eq t]
    exact Tile.total_step Wr (grid0.coords t) p.1
  · show k0_pay1 (k0_pay9 (grid0.coords t) (Tile.wBlock Wr (tpt t))) (fun j => ((p.2.1 (j 1) : ℝ) : EReal)) = _
    rw [← tileOf_eq t, Tile.row_sums]
    exact Tile.row_step _ _
  · show k0_pay2 (k0_pay10 (grid0.coords t) (Tile.wBlock Wr (tpt t)) (Tile.vFull Vr) (vCols (grid0.coords t) (Tile.vFull Vr)))
        (k0_pay11 (grid0.coords t) (Tile.wBlock Wr (tpt t)) (vCols (grid0.coords t) (Tile.vFull Vr))) (fun j => ((p.2.2 (j 1) : ℝ) : EReal)) = _
    rw [vCols_eq Vr t, ← tileOf_eq t, Tile.quad_part, Tile.col_term]
    exact Tile.energy_step (fun b => Potts.quad Wr (Vr b) (Tile.tileOf (grid0.coords t)))
      (fun b => Potts.colTerm Wr (Vr b) (Tile.tileOf (grid0.coords t))) p.2.2

include hV hW in
/-- The accumulators after every point are the real accumulators. -/
theorem acc_real : ∀ (n : ℕ) (h : n < cfg0.N), acc m c n h = emb3 (Potts.rAcc Wr Vr n)
  | 0, h => by
    unfold acc
    rw [zero_real, next_real m Wr Vr c hV hW, tpt_eq]
    rfl
  | n + 1, h => by
    unfold acc
    by_cases h0 : (n + 1) % 4 = 0
    · rw [if_pos h0, zero_real, next_real m Wr Vr c hV hW, tpt_eq]
      unfold Potts.rAcc
      rw [if_pos h0]
    · rw [if_neg h0, acc_real n (Nat.lt_of_succ_lt h), next_real m Wr Vr c hV hW, tpt_eq]
      conv_rhs => unfold Potts.rAcc
      rw [if_neg h0]

include hV hW in
/-- Core 0's result row is its share of each batch row's pair energy. -/
theorem row0_real : row0 m c = fun j => ((Potts.coreEnergy Wr (Vr (j 2)) 0 : ℝ) : EReal) := by
  unfold row0
  rw [iblk0_eq m Vr c hV, acc_real m Wr Vr c hV hW 3 lt3]
  refine (Tile.result_row Vr (Potts.rAcc Wr Vr 3).2.1 (Potts.rAcc Wr Vr 3).1 (Potts.rAcc Wr Vr 3).2.2).trans ?_
  funext j
  exact congrArg _ (Potts.rowOut_3 Wr Vr (j 2))

include hV hW in
/-- Core 1's result row likewise. -/
theorem row1_real : row1 m c = fun j => ((Potts.coreEnergy Wr (Vr (j 2)) 1 : ℝ) : EReal) := by
  unfold row1
  rw [iblk0_eq m Vr c hV, acc_real m Wr Vr c hV hW 7 lt7]
  refine (Tile.result_row Vr (Potts.rAcc Wr Vr 7).2.1 (Potts.rAcc Wr Vr 7).1 (Potts.rAcc Wr Vr 7).2.2).trans ?_
  funext j
  exact congrArg _ (Potts.rowOut_7 Wr Vr (j 2))

end Blocks

/-- The host's last lines at an index: the two rows' entries added. -/
theorem tailOf_apply (g : (⟨S2x1x128, .f32⟩ : BufTy).Contents (Elt Ideal)) (b : Fin 128) :
    tailOf (F := Ideal) g (ix1 b) = g (ix3 (0 : Fin 2) (0 : Fin 1) b) + g (ix3 (1 : Fin 2) (0 : Fin 1) b) := by
  unfold tailOf
  show shapeCast S128 _ shapeCasts_S1x1x128_S128 (ix1 b) + shapeCast S128 _ shapeCasts_S1x1x128_S128 (ix1 b) = _
  rw [shapeCast_apply _ shapeCasts_S1x1x128_S128 (ix1 b) (ix3 (0 : Fin 1) (0 : Fin 1) b)
      (by rw [Shape.rowMajor_val_three, Shape.rowMajor_val_one]; show ((0 : ℕ) * 1 + 0) * 128 + b.val = b.val; omega),
    shapeCast_apply _ shapeCasts_S1x1x128_S128 (ix1 b) (ix3 (0 : Fin 1) (0 : Fin 1) b)
      (by rw [Shape.rowMajor_val_three, Shape.rowMajor_val_one]; show ((0 : ℕ) * 1 + 0) * 128 + b.val = b.val; omega)]
  unfold extractStridedSlice
  refine congrArg₂ (· + ·) (congrArg g (funext fun a => Fin.ext ?_)) (congrArg g (funext fun a => Fin.ext ?_))
  · match a with
    | ⟨0, _⟩ => rfl
    | ⟨1, _⟩ => rfl
    | ⟨2, _⟩ => show 0 + b.val = b.val; omega
  · match a with
    | ⟨0, _⟩ => rfl
    | ⟨1, _⟩ => rfl
    | ⟨2, _⟩ => show 0 + b.val = b.val; omega

/-- The kernel's result on real inputs: at batch row `b`, the two cores' shares of the pair energy, added. -/
theorem kernel_value (c : Dev nD)
    (hV : (m ((c : Thread nD τ).loc main_arg0) : S128x1024.Idx → EReal) = fun j => ((Vr (j 0) (j 1) : ℝ) : EReal))
    (hW : (m ((c : Thread nD τ).loc main_arg1) : S1024x1024.Idx → EReal) = fun j => ((Wr (j 0) (j 1) : ℝ) : EReal))
    (b : Fin 128) :
    tailOf (G m c) (ix1 b) = ((Potts.coreEnergy Wr (Vr b) 0 + Potts.coreEnergy Wr (Vr b) 1 : ℝ) : EReal) := by
  rw [tailOf_apply]
  have g0 : G m c (ix3 (0 : Fin 2) (0 : Fin 1) b) = row0 m c (ix3 (0 : Fin 1) (0 : Fin 1) b) := if_pos rfl
  have g1 : G m c (ix3 (1 : Fin 2) (0 : Fin 1) b) = row1 m c (ix3 (0 : Fin 1) (0 : Fin 1) b) :=
    if_neg (by show ¬(1 : ℕ) = 0; decide)
  rw [g0, g1, row0_real m Wr Vr c hV hW, row1_real m Wr Vr c hV hW, EReal.coe_add]

end Cert.KernelIdeal.Val

end
-- ==== Proof.lean ====
/-
  The certificate of the Potts pair-energy kernel against its jnp reference, at the extended reals.

  The reference computes, for every batch row b of the spin array v (128 rows of 1024 spins) and couplings W,
      E b = Σ_{i ≤ j} ((1 - v b j)(1 - v b i) + v b j · v b i) · W i j
  by building the [128, 1024, 1024] table, zeroing it below the diagonal, multiplying by W and summing the flattened
  table.  The kernel never builds the table: since (1 - a)(1 - b) + a·b = 1 - a - b + 2·a·b,
      E b = S - Σ_i v b i · row i - Σ_j v b j · col j + 2 · Σ_{i,j} v b i · U i j · v b j
  with U the upper triangle of W, row / col its row and column sums and S its total.  It walks the 8 column tiles of
  U (128 lanes each), four per core: each step adds its tile's total, its part of the row sums, and 2·quad - colterm
  of the tile to three running accumulators; a core's last step writes  total - Σ_i v b i · rows i + energy b ; the host
  adds the two cores' rows.

  The expansion distributes products over sums, which fails on the extended reals at the infinities: the
  precondition (every input finite) is used to write both arrays as coercions of real arrays (FiniteInputs), after which
  both programs' results are coercions of real numbers — the kernel's the two cores' shares (KernelStep, KernelChain,
  KernelArray: the accumulators by induction over the grid points and the array the region leaves; TileValues, TileSteps,
  RealAcc, KernelValue: each step on real inputs), the reference's the pair energy over the flattened pair index
  (RefEnergy, over the reference's run RefRun / RefRead) — and the two real numbers are equal (EnergyLaw).
  The frames of the two kernels are the generated ones; the reference's is its run with the result dropped; the ideal
  pass rewrote nothing, so there is nothing to preserve.
-/
import proofs.«133030_j19688130085114_2_alg».proof.Defs
import proofs.«133030_j19688130085114_2_alg».proof.Proof.Gen.Kernel
import proofs.«133030_j19688130085114_2_alg».proof.Proof.Gen.Kernel.Skeleton
import proofs.«133030_j19688130085114_2_alg».proof.Proof.Gen.Kernel.Launch
import proofs.«133030_j19688130085114_2_alg».proof.Proof.Gen.Kernel.Points
import proofs.«133030_j19688130085114_2_alg».proof.Proof.Gen.Kernel.Frame
import proofs.«133030_j19688130085114_2_alg».proof.Proof.Gen.KernelIdeal
import proofs.«133030_j19688130085114_2_alg».proof.Proof.Gen.KernelIdeal.Skeleton
import proofs.«133030_j19688130085114_2_alg».proof.Proof.Gen.KernelIdeal.Launch
import proofs.«133030_j19688130085114_2_alg».proof.Proof.Gen.KernelIdeal.Points
import proofs.«133030_j19688130085114_2_alg».proof.Proof.Gen.KernelIdeal.Frame
import proofs.«133030_j19688130085114_2_alg».proof.Proof.Gen.ReferenceIdeal
import proofs.«133030_j19688130085114_2_alg».proof.Proof.Gen.Pre_finite_inputs
import proofs.«133030_j19688130085114_2_alg».proof.Proof.EnergyLaw
import proofs.«133030_j19688130085114_2_alg».proof.Proof.FiniteInputs
import proofs.«133030_j19688130085114_2_alg».proof.Proof.RefEnergy
import proofs.«133030_j19688130085114_2_alg».proof.Proof.KernelValue
import Idealize.ShloMosaic.Adequacy
import Idealize.ShloMosaic.Init

noncomputable section

namespace Cert.Proof

open Idealize.ShloMosaic Idealize.ShloMosaic.TcCoe Idealize.SL.Sem
open Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- On finite inputs the kernel's result is the reference's: batch row by batch row, the two cores' shares of the
    pair energy add up to the pair energy over the flattened pair index. -/
theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Arr.tailOf (Cert.KernelIdeal.Arr.G m c)
      = Cert.ReferenceIdeal.ReadP.val_main_v18 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  obtain ⟨v, w, hv, hw⟩ := Cert.KernelIdeal.Finite.real_of_pre m hpre c
  have hV : (m ((c.tc : Thread Cert.KernelIdeal.nD Cert.KernelIdeal.τ).loc Cert.KernelIdeal.main_arg0) : Cert.KernelIdeal.S128x1024.Idx → EReal)
      = fun j => (((fun a b => v (ix2 a b)) (j 0) (j 1) : ℝ) : EReal) := by
    rw [hv]; funext j; exact congrArg (fun k => ((v k : ℝ) : EReal)) (eq_ix2 j)
  have hW : (m ((c.tc : Thread Cert.KernelIdeal.nD Cert.KernelIdeal.τ).loc Cert.KernelIdeal.main_arg1) : Cert.KernelIdeal.S1024x1024.Idx → EReal)
      = fun j => (((fun a b => w (ix2 a b)) (j 0) (j 1) : ℝ) : EReal) := by
    rw [hw]; funext j; exact congrArg (fun k => ((w k : ℝ) : EReal)) (eq_ix2 j)
  funext b
  obtain ⟨b0, rfl⟩ : ∃ b0 : Fin 128, b = ix1 b0 := ⟨b 0, eq_ix1 b⟩
  rw [Cert.KernelIdeal.Val.kernel_value m (fun a b => w (ix2 a b)) (fun a b => v (ix2 a b)) c hV hW b0, Potts.energy_law,
    ← Cert.ReferenceIdeal.RefEnergy.ref_value (fun a b => v (ix2 a b)) (fun a b => w (ix2 a b)) b0, hV, hW]
  rfl

theorem algebraic : Cert.algebraic_KernelIdeal_ReferenceIdeal := by
  intro m ρ m' ρ' hpre hagree
  refine ⟨fun c => Cert.ReferenceIdeal.ReadP.val_main_v18 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1.trans (result_eq m hpre c), (h c).2⟩)
      (Cert.KernelIdeal.Arr.run (F := Ideal) m ρ)
  · refine (θ_run Cert.ReferenceIdeal.defs _ _).mono (fun _ h c => ⟨?_, (h c).2⟩)
      (Cert.ReferenceIdeal.ValueP.run (F := Ideal) m' ρ')
    show _ = Cert.ReferenceIdeal.ReadP.val_main_v18 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
    rw [(h c).1, Cert.ReferenceIdeal.ReadP.val_main_v18_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
